-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x300 : Shape := ⟨2, ![100000, 300]⟩
abbrev S2x1600000 : Shape := ⟨2, ![2, 1600000]⟩
abbrev S300x128 : Shape := ⟨2, ![300, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x300 : S_.BroadcastsInDim S100000x300 (![] : Fin 0 → Fin S100000x300.rank)
  reducesTo_S100000x300_S_d0_1 : S100000x300.ReducesTo [0, 1] S_
  h_S_ : 0 < S_.numel
  bcast_S_S300x128 : S_.BroadcastsInDim S300x128 (![] : Fin 0 → Fin S300x128.rank)
  reducesTo_S300x128_S_d0_1 : S300x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S128x10 1) : IVec S_ 1 :=
  let main_c_5 : IVec S_ 1 := constantI S_ 1 1#1
  let main_v17 : IVec S_ 1 := (fun x v => Host.reduce IntOp.andi x v reducesTo_S128x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x300 .f32) (main_arg1 : IVec S2x1600000 32) (main_arg2 : FVec F S300x128 .f32) (main_arg3 : FVec F S128 .f32) (main_arg4 : FVec F S128x10 .f32) (main_arg5 : FVec F S10 .f32) : IVec S_ 1 :=
  let main_v0 : FVec F S100000x300 .f32 := Host.absf main_arg0
  let main_cst : FVec F S_ .f32 := constant S_ .f32 0x7F800000#32
  let main_v1 : FVec F S100000x300 .f32 := broadcastInDim S100000x300 ![] bcast_S_S100000x300 main_cst
  let main_v2 : IVec S100000x300 1 := cmpf .olt main_v0 main_v1
  let main_c : IVec S_ 1 := constantI S_ 1 1#1
  let main_v3 : IVec S_ 1 := (fun x v => Host.reduce IntOp.andi x v reducesTo_S100000x300_S_d0_1 h_S_) main_v2 main_c
  let main_v4 : FVec F S300x128 .f32 := Host.absf main_arg2
  let main_cst_0 : FVec F S_ .f32 := constant S_ .f32 0x7F800000#32
  let main_v5 : FVec F S300x128 .f32 := broadcastInDim S300x128 ![] bcast_S_S300x128 main_cst_0
  let main_v6 : IVec S300x128 1 := cmpf .olt main_v4 main_v5
  let main_c_1 : IVec S_ 1 := constantI S_ 1 1#1
  let main_v7 : IVec S_ 1 := (fun x v => Host.reduce IntOp.andi x v reducesTo_S300x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x10 .f32 := Host.absf main_arg4
  let main_cst_4 : FVec F S_ .f32 := constant S_ .f32 0x7F800000#32
  let main_v15 : FVec F S128x10 .f32 := broadcastInDim S128x10 ![] bcast_S_S128x10 main_cst_4
  let main_v16 : IVec S128x10 1 := cmpf .olt main_v14 main_v15
  fn_part1 (F := F) main_arg5 main_v13 main_v16
-- ==== Kernel.lean ====
abbrev S100000x300 : Shape := ⟨2, ![100000, 300]⟩
abbrev S2x1600000 : Shape := ⟨2, ![2, 1600000]⟩
abbrev S300x128 : Shape := ⟨2, ![300, 128]⟩
abbrev S128 : Shape := ⟨1, ![128]⟩
abbrev S128x10 : Shape := ⟨2, ![128, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x300 : Shape := ⟨2, ![5000, 300]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S100000x10 : Shape := ⟨2, ![100000, 10]⟩
abbrev S5000x10 : Shape := ⟨2, ![5000, 10]⟩
abbrev S1700000x10 : Shape := ⟨2, ![1700000, 10]⟩
abbrev S1x10 : Shape := ⟨2, ![1, 10]⟩

abbrev nBuf : Space → Nat
  | .hbm => 64
  | .vmem => 22
  | .smem => 0
  | _ => 0

abbrev bufTy : (tb : Table) → Fin (tcTables nBuf tb) → BufTy
  | .hbm, ⟨0, _⟩ => ⟨S100000x300, .f32⟩
  | .hbm, ⟨1, _⟩ => ⟨S2x1600000, .i32⟩
  | .hbm, ⟨2, _⟩ => ⟨S300x128, .f32⟩
  | .hbm, ⟨3, _⟩ => ⟨S128, .f32⟩
  | .hbm, ⟨4, _⟩ => ⟨S128x10, .f32⟩
  | .hbm, ⟨5, _⟩ => ⟨S10, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .bf16⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x128, .bf16⟩
  | .hbm, ⟨41, _⟩ => ⟨S1700000x128, .f32⟩
  | .hbm, ⟨42, _⟩ => ⟨S_, .f32⟩
  | .hbm, ⟨43, _⟩ => ⟨S100000x128, .f32⟩
  | .hbm, ⟨44, _⟩ => ⟨S1700000x1, .i32⟩
  | .hbm, ⟨45, _⟩ => ⟨S100000x128, .f32⟩
  | .hbm, ⟨46, _⟩ => ⟨S1x128, .f32⟩
  | .hbm, ⟨47, _⟩ => ⟨S100000x10, .bf16⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x10, .bf16⟩
  | .hbm, ⟨57, _⟩ => ⟨S1700000x10, .f32⟩
  | .hbm, ⟨58, _⟩ => ⟨S_, .f32⟩
  | .hbm, ⟨59, _⟩ => ⟨S100000x10, .f32⟩
  | .hbm, ⟨60, _⟩ => ⟨S1700000x1, .i32⟩
  | .hbm, ⟨61, _⟩ => ⟨S100000x10, .f32⟩
  | .hbm, ⟨62, _⟩ => ⟨S1x10, .f32⟩
  | .hbm, ⟨63, _⟩ => ⟨S100000x10, .f32⟩
  | .local _ .vmem, ⟨0, _⟩ => ⟨S5000x300, .f32⟩
  | .local _ .vmem, ⟨1, _⟩ => ⟨S5000x300, .f32⟩
  | .local _ .vmem, ⟨2, _⟩ => ⟨S300x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S128x10, .f32⟩
  | .local _ .vmem, ⟨13, _⟩ => ⟨S5000x10, .bf16⟩
  | .local _ .vmem, ⟨14, _⟩ => ⟨S5000x10, .bf16⟩
  | .local _ .vmem, ⟨15, _⟩ => ⟨S5000x10, .f32⟩
  | .local _ .vmem, ⟨16, _⟩ => ⟨S5000x10, .f32⟩
  | .local _ .vmem, ⟨17, _⟩ => ⟨S1x10, .f32⟩
  | .local _ .vmem, ⟨18, _⟩ => ⟨S5000x1, .f32⟩
  | .local _ .vmem, ⟨19, _⟩ => ⟨S5000x1, .f32⟩
  | .local _ .vmem, ⟨20, _⟩ => ⟨S5000x10, .f32⟩
  | .local _ .vmem, ⟨21, _⟩ => ⟨S5000x10, .f32⟩
  | _, _ => ⟨S100000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x10 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x300_S5000x300_0_0 : ∀ a, (![0, 0] : Fin 2 → Nat) a + S5000x300.size a ≤ S5000x300.size a
  h_S5000x300 : 0 < S5000x300.numel
  bitsLt_bf16_f32 : FTy.bits .bf16 < FTy.bits .f32
  inb_S300x128_S300x128_0_0 : ∀ a, (![0, 0] : Fin 2 → Nat) a + S300x128.size a ≤ S300x128.size a
  h_S300x128 : 0 < S300x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x10_S128x10_0_0 : ∀ a, (![0, 0] : Fin 2 → Nat) a + S128x10.size a ≤ S128x10.size a
  h_S128x10 : 0 < S128x10.numel
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  packedbf16_S5000x10_S5000x10_0_0 : (Rect.unit (s := S5000x10) ![0, 0] S5000x10.size inb_S5000x10_S5000x10_0_0).PackedRows (EltTy.packing .bf16)
  bcast_S_S100000x10 : S_.BroadcastsInDim S100000x10 (![] : Fin 0 → Fin S100000x10.rank)
  shapeCasts_S10_S1x10 : S10.ShapeCasts S1x10
  shapeCasts_S5000x10_S5000x10 : S5000x10.ShapeCasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  scatter_S100000_S1700000x1_S1700000_n_0_0_1_wf : ScatterDims.WF S100000 S1700000x1 S1700000 [] [0] [0] 1
  dot_S5000x300_S300x128_S5000x128_1_0_0_1_n_n_wf : DotDims.WF S5000x300 S300x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x10_S5000x10_1_0_0_1_n_n_wf : DotDims.WF S5000x128 S128x10 S5000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x300.size a ≤ S100000x300.size a
  hwx0_0 : ∀ i : grid0.Coords, EltTy.bits .f32 = 32 ∨ (Rect.block (s := S100000x300) S5000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x128.size a ≤ S300x128.size a
  hwx0_1 : ∀ i : grid0.Coords, EltTy.bits .f32 = 32 ∨ (Rect.block (s := S300x128) S300x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x10.size a ≤ S128x10.size a
  hwx1_3 : ∀ i : grid1.Coords, EltTy.bits .f32 = 32 ∨ (Rect.block (s := S128x10) S128x10.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x10.size a ≤ S100000x10.size a
  hwx1_4 : ∀ i : grid1.Coords, EltTy.bits .bf16 = 32 ∨ (Rect.block (s := S100000x10) S5000x10.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x10.size a ≤ S100000x10.size a
  hwx2_0 : ∀ i : grid2.Coords, EltTy.bits .f32 = 32 ∨ (Rect.block (s := S100000x10) S5000x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x10.size a ≤ S1x10.size a
  hwx2_1 : ∀ i : grid2.Coords, EltTy.bits .f32 = 32 ∨ (Rect.block (s := S1x10) S1x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x10.size a ≤ S100000x10.size a
  hwx2_3 : ∀ i : grid2.Coords, EltTy.bits .f32 = 32 ∨ (Rect.block (s := S100000x10) S5000x10.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x300_S300x128_S5000x128_1_0_0_1_n_n : DotDims S5000x300 S300x128 S5000x128 where
  lhsContracting := [1]
  rhsContracting := [0]
  lhsNonContracting := [0]
  rhsNonContracting := [1]
  lhsBatch := []
  rhsBatch := []
  wf := dot_S5000x300_S300x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf

abbrev win0_0 : Pipeline.Window sig grid0 :=
  Pipeline.Window.ofSpec (Memref.whole main_arg0) S5000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S300x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x10.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x10.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x300 : Shape := ⟨2, ![100000, 300]⟩
abbrev S2x1600000 : Shape := ⟨2, ![2, 1600000]⟩
abbrev S300x128 : Shape := ⟨2, ![300, 128]⟩
abbrev S128 : Shape := ⟨1, ![128]⟩
abbrev S128x10 : Shape := ⟨2, ![128, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x10 : Shape := ⟨2, ![100000, 10]⟩
abbrev S1700000x10 : Shape := ⟨2, ![1700000, 10]⟩
abbrev S1x10 : Shape := ⟨2, ![1, 10]⟩

abbrev nBuf : Space → Nat
  | .hbm => 128
  | .vmem => 0
  | .smem => 0
  | _ => 0

abbrev bufTy : (tb : Table) → Fin (tcTables nBuf tb) → BufTy
  | .hbm, ⟨0, _⟩ => ⟨S100000x300, .f32⟩
  | .hbm, ⟨1, _⟩ => ⟨S2x1600000, .i32⟩
  | .hbm, ⟨2, _⟩ => ⟨S300x128, .f32⟩
  | .hbm, ⟨3, _⟩ => ⟨S128, .f32⟩
  | .hbm, ⟨4, _⟩ => ⟨S128x10, .f32⟩
  | .hbm, ⟨5, _⟩ => ⟨S10, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x10, .f32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000, .f32⟩
  | .hbm, ⟨108, _⟩ => ⟨S1700000, .f32⟩
  | .hbm, ⟨109, _⟩ => ⟨S_, .i32⟩
  | .hbm, ⟨110, _⟩ => ⟨S1700000, .i32⟩
  | .hbm, ⟨111, _⟩ => ⟨S1700000, .i1⟩
  | .hbm, ⟨112, _⟩ => ⟨S_, .i32⟩
  | .hbm, ⟨113, _⟩ => ⟨S1700000, .i32⟩
  | .hbm, ⟨114, _⟩ => ⟨S1700000, .i32⟩
  | .hbm, ⟨115, _⟩ => ⟨S1700000, .i32⟩
  | .hbm, ⟨116, _⟩ => ⟨S1700000x1, .i32⟩
  | .hbm, ⟨117, _⟩ => ⟨S1700000x10, .f32⟩
  | .hbm, ⟨118, _⟩ => ⟨S1700000x1, .f32⟩
  | .hbm, ⟨119, _⟩ => ⟨S1700000x10, .f32⟩
  | .hbm, ⟨120, _⟩ => ⟨S1700000x10, .f32⟩
  | .hbm, ⟨121, _⟩ => ⟨S_, .f32⟩
  | .hbm, ⟨122, _⟩ => ⟨S100000x10, .f32⟩
  | .hbm, ⟨123, _⟩ => ⟨S1700000x1, .i32⟩
  | .hbm, ⟨124, _⟩ => ⟨S100000x10, .f32⟩
  | .hbm, ⟨125, _⟩ => ⟨S1x10, .f32⟩
  | .hbm, ⟨126, _⟩ => ⟨S100000x10, .f32⟩
  | .hbm, ⟨127, _⟩ => ⟨S100000x10, .f32⟩
  | _, _ => ⟨S100000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x300_S300x128_S100000x128_1_0_0_1_n_n_wf : DotDims.WF S100000x300 S300x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x10_S100000x10_1_0_0_1_n_n_wf : DotDims.WF S100000x128 S128x10 S100000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1

variable [Facts₀]

def dot_S100000x300_S300x128_S100000x128_1_0_0_1_n_n : DotDims S100000x300 S300x128 S100000x128 where
  lhsContracting := [1]
  rhsContracting := [0]
  lhsNonContracting := [0]
  rhsNonContracting := [1]
  lhsBatch := []
  rhsBatch := []
  wf := dot_S100000x300_S300x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf

class Facts : Prop extends Facts₀ where

variable [Facts]
-- ==== Proof.KRun.lean ====
/-
  The run of the three-kernel program with its result named: every weakly fair execution terminates, nothing
  faults, the six argument arrays end as launched, and the result array ends at what the last kernel's write-backs
  leave in it — the contents of the last segment boundary, read at the result's buffer.
-/
import proofs.«126157_j60533269069867_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read off the last boundary's contents. -/
theorem run : θ_run defs (onTc (τ := τ) (main (F := F))) ⟨m, fun _ => 0, ρ⟩ (fun r => ∀ c : Dev nD,
      r.2.mem ((c.tc : Thread nD τ).loc main_v44) = (dat2 (V7 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v44 (by decide))).trans (W8_arr m ρ c 3),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.KHost0.lean ====
/-
  The host operations before the first kernel: the edge list with its self loops, the in-degrees, and the
  per-node normaliser.  The source and destination words are the two rows of the edge array, each followed by the
  node numbers 0 … 99999 (one self loop per node).  The degree of node n is the number of destination words equal
  to n; the normaliser is its inverse square root (degree at least 1 under the root, and 0 where no edge lands),
  kept as a column of one lane for the kernels.
-/
import proofs.«126157_j60533269069867_2_alg».proof.Proof.Gen.KernelIdeal.Frame
import Idealize.ShloMosaic.PureOps.Ideal

set_option maxRecDepth 16384

noncomputable section

namespace Cert.KernelIdeal.HostValue

open Idealize.ShloMosaic Idealize.ShloMosaic.TcCoe Idealize.ShloMosaic.StableHlo Idealize.SL.Sem
open Cert.KernelIdeal Cert.KernelIdeal.Gen

/-- An array of the program at the exact instance: a function of the index. -/
abbrev Arr (s : Shape) (e : EltTy) : Type := (⟨s, e⟩ : BufTy).Contents (Elt Ideal)

/-- The source words: row 0 of the edge array, then the node numbers. -/
def srcOf (E1 : Arr S2x1600000 .i32) : Arr S1700000 .i32 :=
  concatenate S1700000 0
    [⟨S1600000, shapeCast S1600000 (extractStridedSlice S1x1600000 ![0, 0] E1 slices_S2x1600000_S1x1600000_0_0) shapeCasts_S1x1600000_S1600000⟩,
      ⟨S100000, iotaInDim S100000 32 0⟩]
    concatenates_S1600000_S100000_S1700000_d0

/-- The destination words: row 1 of the edge array, then the node numbers. -/
def dstOf (E1 : Arr S2x1600000 .i32) : Arr S1700000 .i32 :=
  concatenate S1700000 0
    [⟨S1600000, shapeCast S1600000 (extractStridedSlice S1x1600000 ![1, 0] E1 slices_S2x1600000_S1x1600000_1_0) shapeCasts_S1x1600000_S1600000⟩,
      ⟨S100000, iotaInDim S100000 32 0⟩]
    concatenates_S1600000_S100000_S1700000_d0

/-- The in-degrees: ones added into zeros at the destination words. -/
def degOf (E1 : Arr S2x1600000 .i32) : Arr S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (dstOf E1))
    (broadcastInDim S1700000 ![] bcast_S_S1700000 (constant (F := Ideal) S_ .f32 0x3F800000#32))

/-- The normaliser: where the degree is positive, the inverse square root of max(degree, 1); elsewhere 0. -/
def dinvOf (E1 : Arr S2x1600000 .i32) : Arr S100000 .f32 :=
  select
    (cmpf (F := Ideal) .ogt (degOf E1) (broadcastInDim S100000 ![] bcast_S_S100000 (constant (F := Ideal) S_ .f32 0x00000000#32)))
    (Host.rsqrt (maximumf (degOf E1) (broadcastInDim S100000 ![] bcast_S_S100000 (constant (F := Ideal) S_ .f32 0x3F800000#32))))
    (broadcastInDim S100000 ![] bcast_S_S100000 (constant (F := Ideal) S_ .f32 0x00000000#32))

/-- The normaliser as a column of one lane. -/
def dcolOf (E1 : Arr S2x1600000 .i32) : Arr S100000x1 .f32 :=
  shapeCast S100000x1 (dinvOf E1) shapeCasts_S100000_S100000x1

variable (m : (ℓ : Loc nD τ sig) → Buf (Elt Ideal) ℓ) (ρ : Dev nD → PrngReg) (c : Dev nD)

theorem w1_v3 : W1 m ρ c (Proc.devRef .tc main_v3) = srcOf (m ((c : Thread nD τ).loc main_arg1)) := by
  show StableHlo.after hostOps0 (W0 m ρ c) (Proc.devRef .tc main_v3) = _
  dsimp only [hostOps0]; after_results; rfl

theorem w1_v6 : W1 m ρ c (Proc.devRef .tc main_v6) = dstOf (m ((c : Thread nD τ).loc main_arg1)) := by
  show StableHlo.after hostOps0 (W0 m ρ c) (Proc.devRef .tc main_v6) = _
  dsimp only [hostOps0]; after_results; rfl

theorem w1_v12 : W1 m ρ c (Proc.devRef .tc main_v12)
    = cmpf (F := Ideal) .ogt (degOf (m ((c : Thread nD τ).loc main_arg1))) (broadcastInDim S100000 ![] bcast_S_S100000 (constant (F := Ideal) S_ .f32 0x00000000#32)) := by
  show StableHlo.after hostOps0 (W0 m ρ c) (Proc.devRef .tc main_v12) = _
  dsimp only [hostOps0]; after_results; rfl

theorem w1_v15 : W1 m ρ c (Proc.devRef .tc main_v15)
    = Host.rsqrt (maximumf (degOf (m ((c : Thread nD τ).loc main_arg1))) (broadcastInDim S100000 ![] bcast_S_S100000 (constant (F := Ideal) S_ .f32 0x3F800000#32))) := by
  show StableHlo.after hostOps0 (W0 m ρ c) (Proc.devRef .tc main_v15) = _
  dsimp only [hostOps0]; after_results; rfl

theorem w1_cst3 : W1 m ρ c (Proc.devRef .tc main_cst_3) = constant (F := Ideal) S_ .f32 0x00000000#32 := by
  show StableHlo.after hostOps0 (W0 m ρ c) (Proc.devRef .tc main_cst_3) = _
  dsimp only [hostOps0]; after_results

/-- After the select of the masked inverse square root: the normaliser. -/
theorem w2_v16 : W2 m ρ c (Proc.devRef .tc main_v16) = dinvOf (m ((c : Thread nD τ).loc main_arg1)) := by
  show StableHlo.after hostOps0_1 (W1 m ρ c) (Proc.devRef .tc main_v16) = _
  have h12 := w1_v12 m ρ c
  have h15 := w1_v15 m ρ c
  have hc3 := w1_cst3 m ρ c
  generalize W1 m ρ c = Wa at h12 h15 hc3 ⊢
  dsimp only [hostOps0_1]; after_results
  show select (Wa (Proc.devRef .tc main_v12)) (Wa (Proc.devRef .tc main_v15))
    (broadcastInDim S100000 ![] bcast_S_S100000 (id (Wa (Proc.devRef .tc main_cst_3)))) = _
  rw [h12, h15, hc3]; rfl

/-- The normaliser column the kernels read. -/
theorem w3_v17 : W3 m ρ c (Proc.devRef .tc main_v17) = dcolOf (m ((c : Thread nD τ).loc main_arg1)) := by
  show StableHlo.after hostOps0_2 (W2 m ρ c) (Proc.devRef .tc main_v17) = _
  have h16 := w2_v16 m ρ c
  generalize W2 m ρ c = Wa at h16 ⊢
  dsimp only [hostOps0_2]; after_results
  show shapeCast S100000x1 (Wa (Proc.devRef .tc main_v16)) shapeCasts_S100000_S100000x1 = _
  rw [h16]; rfl

/-- The source words are still there when the first kernel starts. -/
theorem w3_v3 : W3 m ρ c (Proc.devRef .tc main_v3) = srcOf (m ((c : Thread nD τ).loc main_arg1)) := by
  have h := w1_v3 m ρ c
  show StableHlo.after hostOps0_2 (StableHlo.after hostOps0_1 (W1 m ρ c)) (Proc.devRef .tc main_v3) = _
  generalize W1 m ρ c = Wa at h ⊢
  dsimp only [hostOps0_2, hostOps0_1]; after_results; exact h

/-- So are the destination words. -/
theorem w3_v6 : W3 m ρ c (Proc.devRef .tc main_v6) = dstOf (m ((c : Thread nD τ).loc main_arg1)) := by
  have h := w1_v6 m ρ c
  show StableHlo.after hostOps0_2 (StableHlo.after hostOps0_1 (W1 m ρ c)) (Proc.devRef .tc main_v6) = _
  generalize W1 m ρ c = Wa at h ⊢
  dsimp only [hostOps0_2, hostOps0_1]; after_results; exact h

/-- No host operation before the first kernel writes an argument array. -/
theorem w3_arg (b : Ref sig .tc) (hb : b = main_arg0 ∨ b = main_arg2 ∨ b = main_arg3 ∨ b = main_arg4 ∨ b = main_arg5) :
    W3 m ρ c (Proc.devRef .tc b) = W0 m ρ c (Proc.devRef .tc b) := by
  show StableHlo.after hostOps0_2 (StableHlo.after hostOps0_1 (StableHlo.after hostOps0 (W0 m ρ c))) (Proc.devRef .tc b) = _
  generalize W0 m ρ c = Wa
  rcases hb with rfl | rfl | rfl | rfl | rfl <;>
    (dsimp only [hostOps0_2, hostOps0_1, hostOps0]; after_results)

end Cert.KernelIdeal.HostValue

end
-- ==== Proof.KHost1.lean ====
/-
  What stays in place while the kernels run: the source and destination words, the normaliser column and the
  argument arrays are written by no kernel and by no later host operation, so every later stage reads them as the
  first stretch of host operations left them.
-/
import proofs.«126157_j60533269069867_2_alg».proof.Proof.KHost0

set_option maxRecDepth 16384

noncomputable section

namespace Cert.KernelIdeal.HostValue

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-! ### After the first kernel -/

theorem w4_v3 : W4 m ρ c (Proc.devRef .tc main_v3) = srcOf (m ((c : Thread nD τ).loc main_arg1)) :=
  (W4_of_ne m ρ c main_v3 (by decide)).trans (w3_v3 m ρ c)

theorem w4_v6 : W4 m ρ c (Proc.devRef .tc main_v6) = dstOf (m ((c : Thread nD τ).loc main_arg1)) :=
  (W4_of_ne m ρ c main_v6 (by decide)).trans (w3_v6 m ρ c)

theorem w4_v17 : W4 m ρ c (Proc.devRef .tc main_v17) = dcolOf (m ((c : Thread nD τ).loc main_arg1)) :=
  (W4_arr m ρ c 2).trans ((((dat0 (V3 m ρ) c).arrAt_in 2 rfl _).trans (A_eq0 (V3 m ρ) c 2)).trans (w3_v17 m ρ c))

theorem w4_arg3 : W4 m ρ c (Proc.devRef .tc main_arg3) = m ((c : Thread nD τ).loc main_arg3) :=
  (W4_of_ne m ρ c main_arg3 (by decide)).trans (w3_arg m ρ c main_arg3 (by simp))

theorem w4_arg4 : W4 m ρ c (Proc.devRef .tc main_arg4) = m ((c : Thread nD τ).loc main_arg4) :=
  (W4_of_ne m ρ c main_arg4 (by decide)).trans (w3_arg m ρ c main_arg4 (by simp))

theorem w4_arg5 : W4 m ρ c (Proc.devRef .tc main_arg5) = m ((c : Thread nD τ).loc main_arg5) :=
  (W4_of_ne m ρ c main_arg5 (by decide)).trans (w3_arg m ρ c main_arg5 (by simp))

/-! ### After the host operations between the first and the second kernel -/

theorem w5_keep (b : Ref sig .tc)
    (hb : b = main_v3 ∨ b = main_v6 ∨ b = main_v17 ∨ b = main_arg4 ∨ b = main_arg5) :
    W5 m ρ c (Proc.devRef .tc b) = W4 m ρ c (Proc.devRef .tc b) := by
  show StableHlo.after hostOps1 (W4 m ρ c) (Proc.devRef .tc b) = _
  generalize W4 m ρ c = Wa
  rcases hb with rfl | rfl | rfl | rfl | rfl <;>
    (dsimp only [hostOps1]; after_results)

/-! ### After the second kernel -/

theorem w6_v3 : W6 m ρ c (Proc.devRef .tc main_v3) = srcOf (m ((c : Thread nD τ).loc main_arg1)) :=
  (W6_of_ne m ρ c main_v3 (by decide)).trans ((w5_keep m ρ c main_v3 (by simp)).trans (w4_v3 m ρ c))

theorem w6_v6 : W6 m ρ c (Proc.devRef .tc main_v6) = dstOf (m ((c : Thread nD τ).loc main_arg1)) :=
  (W6_of_ne m ρ c main_v6 (by decide)).trans ((w5_keep m ρ c main_v6 (by simp)).trans (w4_v6 m ρ c))

theorem w5_v17 : W5 m ρ c (Proc.devRef .tc main_v17) = dcolOf (m ((c : Thread nD τ).loc main_arg1)) :=
  (w5_keep m ρ c main_v17 (by simp)).trans (w4_v17 m ρ c)

theorem w6_v17 : W6 m ρ c (Proc.devRef .tc main_v17) = dcolOf (m ((c : Thread nD τ).loc main_arg1)) :=
  (W6_arr m ρ c 2).trans ((((dat1 (V5 m ρ) c).arrAt_in 2 rfl _).trans (A_eq1 (V5 m ρ) c 2)).trans (w5_v17 m ρ c))

theorem w6_arg5 : W6 m ρ c (Proc.devRef .tc main_arg5) = m ((c : Thread nD τ).loc main_arg5) :=
  (W6_of_ne m ρ c main_arg5 (by decide)).trans ((w5_keep m ρ c main_arg5 (by simp)).trans (w4_arg5 m ρ c))

/-! ### After the host operations between the second and the third kernel -/

theorem w7_v17 : W7 m ρ c (Proc.devRef .tc main_v17) = dcolOf (m ((c : Thread nD τ).loc main_arg1)) := by
  refine Eq.trans ?_ (w6_v17 m ρ c)
  show StableHlo.after hostOps2 (W6 m ρ c) (Proc.devRef .tc main_v17) = _
  generalize W6 m ρ c = Wa
  dsimp only [hostOps2]; after_results

end Cert.KernelIdeal.HostValue

end
-- ==== Proof.Model.lean ====
/-
  A two-layer graph convolution on 100000 nodes and 1700000 edges (the given edges followed by one self loop per
  node), written as plain functions of the node features, the two weight matrices, the two biases, the per-node
  normaliser D (the inverse square root of the in-degree) and the edges' index words.

  Every edge e carries a source word g e and a destination word d e.  A gather reads the table row
  rowOf (g e): the word read signed and clamped into the table.  A scatter-add lands edge e on node n exactly when
  d e, read signed, is n; edges whose word is no node are dropped.

  One program scales each node's projected features by D before the gather and once more after the scatter-add.
  The other multiplies each edge's message by D at the source times D at the destination, the latter read through
  the gather word gd e of the destination.
-/
import Idealize.ShloMosaic.PureOps.Ideal
import Idealize.ShloMosaic.Lib.ValueIdx

noncomputable section

open scoped BigOperators
open Idealize.ShloMosaic Idealize.ShloMosaic.ValueIdx

namespace Cert.Gcn

abbrev NN : Nat := 100000
abbrev EE : Nat := 1700000

abbrev SX : Shape := ⟨2, ![100000, 300]⟩
abbrev SW1 : Shape := ⟨2, ![300, 128]⟩
abbrev SB1 : Shape := ⟨1, ![128]⟩
abbrev SW2 : Shape := ⟨2, ![128, 10]⟩
abbrev SB2 : Shape := ⟨1, ![10]⟩
abbrev SH : Shape := ⟨2, ![100000, 128]⟩
abbrev SO : Shape := ⟨2, ![100000, 10]⟩
abbrev SC : Shape := ⟨2, ![100000, 1]⟩
abbrev SR1 : Shape := ⟨2, ![1, 128]⟩
abbrev SR2 : Shape := ⟨2, ![1, 10]⟩

/-- The table row a gather reads for a start word: the word read signed, clamped into [0, 99999]. -/
def rowOf (w : BitVec 32) : Fin 100000 := ⟨min w.toInt.toNat (100000 - 1), by omega⟩

/-- A scatter-add into zeros: node n receives zero plus the sum of u e over the edges e whose destination word,
    read signed, is n. -/
def scat (d : Fin EE → BitVec 32) (u : Fin EE → EReal) (n : Fin NN) : EReal :=
  0 + ∑ e : Fin EE, if (d e).toInt = (n.val : Int) then u e else 0

/-- The first projection: node n's features against column l of the first weight matrix. -/
def xw (X : SX.Idx → EReal) (W1 : SW1.Idx → EReal) (n : Fin NN) (l : Fin 128) : EReal :=
  ∑ k : Fin 300, X (ix2 n k) * W1 (ix2 k l)

section Scaled
/-! ### The program that scales rows before the gather and after the scatter-add -/
variable (g d : Fin EE → BitVec 32) (D : Fin NN → EReal)
  (X : SX.Idx → EReal) (W1 : SW1.Idx → EReal) (b1 : SB1.Idx → EReal) (W2 : SW2.Idx → EReal) (b2 : SB2.Idx → EReal)

/-- The hidden layer: the scaled projections summed over incoming edges, scaled again, biased, clipped at zero. -/
def kHidden (n : Fin NN) (l : Fin 128) : EReal :=
  max (scat d (fun e => xw X W1 (rowOf (g e)) l * D (rowOf (g e))) n * D n + b1 (ix1 l)) 0

/-- The second projection, scaled by the node's normaliser. -/
def kSecond (n : Fin NN) (c : Fin 10) : EReal :=
  (∑ l : Fin 128, kHidden g d D X W1 b1 n l * W2 (ix2 l c)) * D n

/-- The output: the scaled second projections summed over incoming edges, scaled again, biased. -/
def kOut (n : Fin NN) (c : Fin 10) : EReal :=
  scat d (fun e => kSecond g d D X W1 b1 W2 (rowOf (g e)) c) n * D n + b2 (ix1 c)

end Scaled

section PerEdge
/-! ### The program that weights each edge's message -/
variable (g gd d : Fin EE → BitVec 32) (D : Fin NN → EReal)
  (X : SX.Idx → EReal) (W1 : SW1.Idx → EReal) (b1 : SB1.Idx → EReal) (W2 : SW2.Idx → EReal) (b2 : SB2.Idx → EReal)

/-- An edge's weight: the normaliser at its source row times the normaliser at its destination row. -/
def edgeNorm (e : Fin EE) : EReal := D (rowOf (g e)) * D (rowOf (gd e))

/-- The hidden layer: weighted projections summed over incoming edges, biased, clipped at zero. -/
def rHidden (n : Fin NN) (l : Fin 128) : EReal :=
  max (scat d (fun e => xw X W1 (rowOf (g e)) l * edgeNorm g gd D e) n + b1 (ix1 l)) 0

/-- The second projection. -/
def rSecond (n : Fin NN) (c : Fin 10) : EReal :=
  ∑ l : Fin 128, rHidden g gd d D X W1 b1 n l * W2 (ix2 l c)

/-- The output: weighted second projections summed over incoming edges, biased. -/
def rOut (n : Fin NN) (c : Fin 10) : EReal :=
  scat d (fun e => rSecond g gd d D X W1 b1 W2 (rowOf (g e)) c * edgeNorm g gd D e) n + b2 (ix1 c)

end PerEdge

/-! ### What each of the three row-tiled kernels leaves in its output array, as a function of its operand arrays -/

/-- Rows of X against W, each row scaled by its entry of the column Dc. -/
def G0 (X : SX.Idx → EReal) (W : SW1.Idx → EReal) (Dc : SC.Idx → EReal) : SH.Idx → EReal := fun i =>
  (∑ k : Fin 300, X (ix2 (i 0) k) * W (ix2 k (i 1))) * Dc (ix2 (i 0) 0)

/-- Rows of A scaled by Dc, biased by the row b, clipped at zero, against W, scaled by Dc again. -/
def G1 (A : SH.Idx → EReal) (b : SR1.Idx → EReal) (Dc : SC.Idx → EReal) (W : SW2.Idx → EReal) : SO.Idx → EReal := fun i =>
  (∑ l : Fin 128, max (A (ix2 (i 0) l) * Dc (ix2 (i 0) 0) + b (ix2 0 l)) 0 * W (ix2 l (i 1))) * Dc (ix2 (i 0) 0)

/-- Rows of A scaled by Dc and biased by the row b. -/
def G2 (A : SO.Idx → EReal) (b : SR2.Idx → EReal) (Dc : SC.Idx → EReal) : SO.Idx → EReal := fun i =>
  A i * Dc (ix2 (i 0) 0) + b (ix2 0 (i 1))

end Cert.Gcn

end
-- ==== Proof.LibScatterRows.lean ====
/-
  The landing index of an update for two row-scatter layouts, in closed form, and the accumulating scatter of rows
  re-indexed by the row number.

  * Rows (`resultIdx?_rows`): the operand is `K × C`, the updates are `N × C`, and each update row carries one start
    index. Update `(n, l)` lands at `(k, l')` exactly when the `n`-th start index, read as a signed integer, is `k` and
    `l' = l`: a row keeps its lane, and a start index outside `[0, K)` lands nowhere. Consequently
    (`hostScatterAdd_rows_apply`) the accumulated element `(k, l)` is the operand's element plus the sum, over the rows
    `n` whose start index is `k`, of the update's element `(n, l)`.
  * Row block (`resultIdx?_rowBlock`): an `R × Q` block written into a `P × Q` array at one start row, read off a
    one-element index vector. Update `(r, q)` lands at `(p, q')` exactly when the start row, read signed, plus `r` is
    `p` and `q' = q`.
-/
import Idealize.ShloMosaic.PureOps.ShapeOps
import Idealize.ShloMosaic.PureOps.Dims
import Idealize.ShloMosaic.PureOps.Ideal
import Idealize.ShloMosaic.Lib.ValueIdx

noncomputable section

open scoped BigOperators

namespace Cert.LibScatter

open Idealize.ShloMosaic Idealize.ShloMosaic.ValueIdx

variable {N K C P Q R w : Nat}

section Rows

variable (d : ScatterDims ⟨2, ![K, C]⟩ ⟨2, ![N, 1]⟩ ⟨2, ![N, C]⟩)
    (h1 : d.updateWindowDims = [1]) (h2 : d.insertedWindowDims = [0]) (h3 : d.scatterDimsToOperandDims = [0])
    (h4 : d.indexVectorDim = 1)

include h1 h2 h3 h4 in
/-- The start of update `j` on the row axis is its row's start index, read signed. -/
theorem start_rows0 (j : (⟨2, ![N, C]⟩ : Shape).Idx) (idx : IVec ⟨2, ![N, 1]⟩ w) :
    d.start j idx 0 = (idx (ix2 (j 0) 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The lane axis has no start index: its start is zero. -/
theorem start_rows1 (j : (⟨2, ![N, C]⟩ : Shape).Idx) (idx : IVec ⟨2, ![N, 1]⟩ w) : d.start j idx 1 = 0 := by
  obtain ⟨uw, iw, sd, iv, wf⟩ := d
  subst h1 h2 h3 h4
  unfold ScatterDims.start
  rw [dif_neg]
  simp

include h1 h2 h3 h4 in
/-- The row axis is an inserted one: its window coordinate is zero. -/
theorem window_rows0 (j : (⟨2, ![N, C]⟩ : Shape).Idx) : d.window j 0 = 0 := by
  obtain ⟨uw, iw, sd, iv, wf⟩ := d
  subst h1 h2 h3 h4
  unfold ScatterDims.window
  rw [dif_neg]
  simp [ScatterDims.sKept, Shape.kept]

include h1 h2 h3 h4 in
/-- The lane axis is the window axis: the window coordinate is the update's lane. -/
theorem window_rows1 (j : (⟨2, ![N, C]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(n, l)` lands at `(k, l')` exactly when row `n`'s start index, read signed, is `k` and `l' = l`. -/
theorem resultIdx?_rows (j : (⟨2, ![N, C]⟩ : Shape).Idx) (idx : IVec ⟨2, ![N, 1]⟩ w) (i : (⟨2, ![K, C]⟩ : Shape).Idx) :
    d.resultIdx? j idx = some i ↔ (idx (ix2 (j 0) 0)).toInt = ((i 0).val : Int) ∧ (i 1).val = (j 1).val := by
  have hs0 := start_rows0 d h1 h2 h3 h4 j idx
  have hs1 := start_rows1 d h1 h2 h3 h4 j idx
  have hw0 := window_rows0 d h1 h2 h3 h4 j
  have hw1 := window_rows1 d h1 h2 h3 h4 j
  have hi0 : (i 0).val < K := (i 0).isLt
  have hi1 : (i 1).val < C := (i 1).isLt
  have hj1 : (j 1).val < C := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![K, C]⟩ : Shape).size a := by
      intro a
      match a with
      | ⟨0, _⟩ =>
        show 0 ≤ d.start j idx 0 + ↑(d.window j 0) ∧ d.start j idx 0 + ↑(d.window j 0) < ((K : Nat) : Int)
        rw [hs0, hw0, e0]; omega
      | ⟨1, _⟩ =>
        show 0 ≤ d.start j idx 1 + ↑(d.window j 1) ∧ d.start j idx 1 + ↑(d.window j 1) < ((C : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

include h1 h2 h3 h4 in
/-- The accumulated element `(k, l)` is the operand's element plus the sum of the updates' elements `(n, l)` over
    the rows `n` whose start index, read signed, is `k`. -/
theorem hostScatterAdd_rows_apply (x : (⟨2, ![K, C]⟩ : Shape).Idx → EReal) (idx : IVec ⟨2, ![N, 1]⟩ w)
    (upd : (⟨2, ![N, C]⟩ : Shape).Idx → EReal) (k : Fin K) (l : Fin C) :
    Ideal.hostScatterAdd d x idx upd (ix2 k l)
      = x (ix2 k l) + ∑ n : Fin N, if (idx (ix2 n 0)).toInt = (k.val : Int) then upd (ix2 n l) else 0 := by
  unfold Ideal.hostScatterAdd
  congr 1
  rw [Finset.sum_filter, sum_idx2]
  apply Finset.sum_congr rfl
  intro n _
  -- the landing condition of update (n, l') at (k, l): row n's start index is k, and l' = l
  have hcond : ∀ l' : Fin C, (d.resultIdx? (ix2 n l') idx = some (ix2 k l)) ↔
      ((idx (ix2 n 0)).toInt = (k.val : Int) ∧ l = l') := by
    intro l'
    rw [resultIdx?_rows d h1 h2 h3 h4]
    constructor
    · rintro ⟨a, b⟩; exact ⟨a, Fin.ext b⟩
    · rintro ⟨a, b⟩; exact ⟨a, congrArg Fin.val b⟩
  by_cases hA : (idx (ix2 n 0)).toInt = (k.val : Int)
  · rw [if_pos hA, Finset.sum_eq_single l]
    · rw [if_pos ((hcond l).2 ⟨hA, rfl⟩)]
    · intro l' _ hne
      rw [if_neg]
      intro h
      exact hne ((hcond l').1 h).2.symm
    · intro h
      exact absurd (Finset.mem_univ l) h
  · rw [if_neg hA]
    apply Finset.sum_eq_zero
    intro l' _
    rw [if_neg]
    intro h
    exact hA ((hcond l').1 h).1

end Rows

section RowBlock

variable (d : ScatterDims ⟨2, ![P, Q]⟩ ⟨1, ![1]⟩ ⟨2, ![R, Q]⟩)
    (h1 : d.updateWindowDims = [0, 1]) (h2 : d.insertedWindowDims = []) (h3 : d.scatterDimsToOperandDims = [0])
    (h4 : d.indexVectorDim = 0)

include h1 h2 h3 h4 in
/-- The start on the row axis is the one start index, read signed. -/
theorem start_rowBlock0 (j : (⟨2, ![R, Q]⟩ : Shape).Idx) (idx : IVec ⟨1, ![1]⟩ w) :
    d.start j idx 0 = (idx (ix1 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl

include h1 h2 h3 h4 in
/-- The lane axis has no start index: its start is zero. -/
theorem start_rowBlock1 (j : (⟨2, ![R, Q]⟩ : Shape).Idx) (idx : IVec ⟨1, ![1]⟩ w) : d.start j idx 1 = 0 := by
  obtain ⟨uw, iw, sd, iv, wf⟩ := d
  subst h1 h2 h3 h4
  unfold ScatterDims.start
  rw [dif_neg]
  simp

include h1 h2 h3 h4 in
/-- Both axes are window axes: on the row axis the window coordinate is the update's row. -/
theorem window_rowBlock0 (j : (⟨2, ![R, Q]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
/-- On the lane axis the window coordinate is the update's lane. -/
theorem window_rowBlock1 (j : (⟨2, ![R, Q]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(r, q)` lands at `(p, q')` exactly when the start row, read signed, plus `r` is `p` and `q' = q`. -/
theorem resultIdx?_rowBlock (j : (⟨2, ![R, Q]⟩ : Shape).Idx) (idx : IVec ⟨1, ![1]⟩ w) (i : (⟨2, ![P, Q]⟩ : Shape).Idx) :
    d.resultIdx? j idx = some i ↔ (idx (ix1 0)).toInt + ((j 0).val : Int) = ((i 0).val : Int) ∧ (i 1).val = (j 1).val := by
  have hs0 := start_rowBlock0 d h1 h2 h3 h4 j idx
  have hs1 := start_rowBlock1 d h1 h2 h3 h4 j idx
  have hw0 := window_rowBlock0 d h1 h2 h3 h4 j
  have hw1 := window_rowBlock1 d h1 h2 h3 h4 j
  have hi0 : (i 0).val < P := (i 0).isLt
  have hi1 : (i 1).val < Q := (i 1).isLt
  have hj1 : (j 1).val < Q := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![P, Q]⟩ : Shape).size a := by
      intro a
      match a with
      | ⟨0, _⟩ =>
        show 0 ≤ d.start j idx 0 + ↑(d.window j 0) ∧ d.start j idx 0 + ↑(d.window j 0) < ((P : Nat) : Int)
        rw [hs0, hw0, e0]; omega
      | ⟨1, _⟩ =>
        show 0 ≤ d.start j idx 1 + ↑(d.window j 1) ∧ d.start j idx 1 + ↑(d.window j 1) < ((Q : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

end RowBlock

end Cert.LibScatter
-- ==== Proof.LibScatterIdeal.lean ====
/-
  The host's accumulating scatter, read at the extended reals, is the exact sum: every operand element plus the
  updates that land on it, whatever the shapes and the dimension numbers.
-/
import Idealize.ShloMosaic.PureOps.Contract
import Idealize.ShloMosaic.PureOps.Ideal

noncomputable section

namespace Cert.LibScatter

open Idealize.ShloMosaic

/-- Over the extended reals the accumulating scatter is the operand plus the sum of the updates landing there. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

end Cert.LibScatter

end
-- ==== Proof.LibGather.lean ====
/-
  The host's gather of rows, read at one element, for the two layouts an indexed read `x[idx]` along the leading axis
  lowers to when every start index is a one-element index vector (start indices of shape N × 1).

  * Rows (`gather_rows_apply`): the operand is K × C, the result N × C; the row axis is collapsed, the lane axis is the
    one offset axis, and the slice is one whole row. Result element (n, l) is the operand's element (r, l), where r is
    the n-th start index read as a signed integer and clamped into [0, K − 1].
  * Vector (`gather_vec_apply`): the operand is a vector of length K, the result a vector of length N; the one axis is
    collapsed and the slice is one entry. Result entry n is the operand's entry r, with r as above.

  The clamp is StableHLO's: a start index is moved into the range where the slice fits, so a negative word reads row 0
  and a word of K or more reads row K − 1.
-/
import Idealize.ShloMosaic.PureOps.ShapeOps
import Idealize.ShloMosaic.PureOps.Dims
import Idealize.ShloMosaic.Lib.ValueIdx

noncomputable section

namespace Cert.LibGather

open Idealize.ShloMosaic Idealize.ShloMosaic.ValueIdx

variable {N K C w : Nat}

section Rows

variable (d : GatherDims ⟨2, ![K, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])

include h1 h2 h3 h4 h5 h6 h7 in
/-- On the row axis the slice starts at the row's start index, read signed and clamped into [0, K − 1]. -/
theorem start_rows0 (j : (⟨2, ![N, C]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The lane axis is not in the start index map: the slice starts at lane 0. -/
theorem start_rows1 (j : (⟨2, ![N, C]⟩ : Shape).Idx) (idx : IVec ⟨2, ![N, 1]⟩ w) : d.start j idx 1 = 0 := by
  obtain ⟨od, cd, ob, sb, sm, iv, ss, wf⟩ := d
  subst h1 h2 h3 h4 h5 h6 h7
  unfold GatherDims.start
  rw [dif_neg]
  simp

include h1 h2 h3 h4 h5 h6 h7 in
/-- The row axis is collapsed: no offset on it. -/
theorem offCoord_rows0 (j : (⟨2, ![N, C]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- The lane axis is the offset axis: the offset is the result's lane. -/
theorem offCoord_rows1 (j : (⟨2, ![N, C]⟩ : Shape).Idx) : d.offCoord j 1 = (j 1).val := by
  obtain ⟨od, cd, ob, sb, sm, iv, ss, wf⟩ := d
  subst h1 h2 h3 h4 h5 h6 h7
  unfold GatherDims.offCoord
  rw [dif_pos (by simp [GatherDims.sKept, Shape.kept])]
  rfl

include h1 h2 h3 h4 h5 h6 h7 in
/-- THE ROW GATHER READ AT (n, l): the operand at row "start index n, read signed, clamped into [0, K − 1]", lane l. -/
theorem gather_rows_apply (hK : 0 < K) {α : Type} (x : (⟨2, ![K, C]⟩ : Shape).Idx → α) (idx : IVec ⟨2, ![N, 1]⟩ w)
    (n : Fin N) (l : Fin C) :
    Host.gather d x idx (ix2 n l) = x (ix2 ⟨min (idx (ix2 n 0)).toInt.toNat (K - 1), by omega⟩ l) := by
  have hs0 := start_rows0 d h1 h2 h3 h4 h5 h6 h7 (ix2 n l) idx
  have hs1 := start_rows1 d h1 h2 h3 h4 h5 h6 h7 (ix2 n l) idx
  have ho0 := offCoord_rows0 d h1 h2 h3 h4 h5 h6 h7 (ix2 n l)
  have ho1 := offCoord_rows1 d h1 h2 h3 h4 h5 h6 h7 (ix2 n l)
  have hb : ∀ a, d.batchCoord (ix2 n l) a = 0 := fun a =>
    d.batchCoord_eq_zero _ a (by rw [h3]; exact List.not_mem_nil)
  unfold Host.gather
  congr 1
  funext a
  refine Fin.ext ?_
  match a with
  | ⟨0, _⟩ =>
    show d.start (ix2 n l) idx 0 + d.batchCoord (ix2 n l) 0 + d.offCoord (ix2 n l) 0 = _
    rw [hs0, hb, ho0]; rfl
  | ⟨1, _⟩ =>
    show d.start (ix2 n l) idx 1 + d.batchCoord (ix2 n l) 1 + d.offCoord (ix2 n l) 1 = _
    rw [hs1, hb, ho1]; show 0 + 0 + l.val = l.val; omega

end Rows

section Vec

variable (d : GatherDims ⟨1, ![K]⟩ ⟨2, ![N, 1]⟩ ⟨1, ![N]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])

include h1 h2 h3 h4 h5 h6 h7 in
/-- On the vector's one axis the slice starts at the start index, read signed and clamped into [0, K − 1]. -/
theorem start_vec0 (j : (⟨1, ![N]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The one axis is collapsed: no offset on it. -/
theorem offCoord_vec0 (j : (⟨1, ![N]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- THE VECTOR GATHER READ AT n: the operand at entry "start index n, read signed, clamped into [0, K − 1]". -/
theorem gather_vec_apply (hK : 0 < K) {α : Type} (x : (⟨1, ![K]⟩ : Shape).Idx → α) (idx : IVec ⟨2, ![N, 1]⟩ w)
    (n : Fin N) :
    Host.gather d x idx (ix1 n) = x (ix1 ⟨min (idx (ix2 n 0)).toInt.toNat (K - 1), by omega⟩) := by
  have hs0 := start_vec0 d h1 h2 h3 h4 h5 h6 h7 (ix1 n) idx
  have ho0 := offCoord_vec0 d h1 h2 h3 h4 h5 h6 h7 (ix1 n)
  have hb : ∀ a, d.batchCoord (ix1 n) a = 0 := fun a =>
    d.batchCoord_eq_zero _ a (by rw [h3]; exact List.not_mem_nil)
  unfold Host.gather
  congr 1
  funext a
  refine Fin.ext ?_
  match a with
  | ⟨0, _⟩ =>
    show d.start (ix1 n) idx 0 + d.batchCoord (ix1 n) 0 + d.offCoord (ix1 n) 0 = _
    rw [hs0, hb, ho0]; rfl

end Vec

end Cert.LibGather

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.KRead.lean ====
/-
  Message passing on the host, read at one entry.  A table T of one row per node is gathered at the edges'
  source words and the gathered rows are added into zeros at the edges' destination words: entry (n, l) of the
  result is zero plus the sum, over the edges whose destination word read signed is n, of T at the clamped source
  row and lane l.  Also the normaliser column and the bias rows read at an entry.
-/
import proofs.«126157_j60533269069867_2_alg».proof.Proof.Gen.KernelIdeal
import proofs.«126157_j60533269069867_2_alg».proof.Proof.Model
import proofs.«126157_j60533269069867_2_alg».proof.Proof.LibScatterRows
import proofs.«126157_j60533269069867_2_alg».proof.Proof.LibScatterIdeal
import proofs.«126157_j60533269069867_2_alg».proof.Proof.LibGather
import proofs.«126157_j60533269069867_2_alg».proof.Proof.LibKeepdims
import proofs.«126157_j60533269069867_2_alg».proof.Proof.LibRowVector
import Idealize.ShloMosaic.Lib.Pipeline.Value
import Idealize.ShloMosaic.Lib.ValueIdx
import Idealize.ShloMosaic.PureOps.Ideal.Laws

set_option maxRecDepth 16384

noncomputable section

namespace Cert.KernelIdeal.HostRead

open scoped BigOperators
open Idealize.ShloMosaic Idealize.ShloMosaic.ValueIdx
open Cert.KernelIdeal Cert.KernelIdeal.Gen Cert.Gcn

abbrev Arr (s : Shape) (e : EltTy) : Type := (⟨s, e⟩ : BufTy).Contents (Elt Ideal)

/-- A vector of index words broadcast to a column of one lane, read at (e, 0): the word at e. -/
theorem words_column (v : Arr S1700000 .i32) (e : Fin 1700000) (u : Fin 1) :
    broadcastInDim S1700000x1 ![0] bcast_S1700000_S1700000x1_0 v (ix2 e u) = v (ix1 e) :=
  broadcastInDim_apply _ _ v (ix2 e u) (ix1 e) (fun a => by
    match a with
    | ⟨0, _⟩ => rfl)

/-- Gather the rows of a 128-lane table at the words gV, add them into zeros at the words dV. -/
def aggRows128 (dV gV : Arr S1700000 .i32) (T : Arr S100000x128 .bf16) : Arr S100000x128 .f32 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dV)
    (extf .f32 (Host.gather gather_S100000x128_S1700000x1_S1700000x128_1_0_n_n_0_1_1128 T
      (broadcastInDim S1700000x1 ![0] bcast_S1700000_S1700000x1_0 gV)) bitsLt_bf16_f32)

theorem aggRows128_apply (dV gV : Arr S1700000 .i32) (T : Arr S100000x128 .bf16) (n : Fin 100000) (l : Fin 128) :
    aggRows128 dV gV T (ix2 n l)
      = scat (fun e => dV (ix1 e)) (fun e => T (ix2 (rowOf (gV (ix1 e))) l)) n := by
  unfold aggRows128
  rw [Cert.LibScatter.scatterAdd_ideal]
  rw [Cert.LibScatter.hostScatterAdd_rows_apply _ rfl rfl rfl rfl]
  unfold scat
  refine congrArg₂ (fun a b : EReal => a + b) ?_ ?_
  · exact Ideal.ofBits_zero_f32
  · refine Finset.sum_congr rfl fun e _ => ?_
    rw [words_column]
    refine if_congr Iff.rfl ?_ rfl
    rw [extf_apply, Cert.LibGather.gather_rows_apply _ rfl rfl rfl rfl rfl rfl rfl (by norm_num)]
    show T (ix2 (rowOf (broadcastInDim S1700000x1 ![0] bcast_S1700000_S1700000x1_0 gV (ix2 e 0))) l) = T (ix2 (rowOf (gV (ix1 e))) l)
    rw [words_column]

/-- The same for a 10-lane table. -/
def aggRows10 (dV gV : Arr S1700000 .i32) (T : Arr S100000x10 .bf16) : Arr S100000x10 .f32 :=
  Host.scatterAdd scatter_S100000x10_S1700000x1_S1700000x10_1_0_0_1
    (broadcastInDim S100000x10 ![] bcast_S_S100000x10 (constant (F := Ideal) S_ .f32 0x00000000#32))
    (broadcastInDim S1700000x1 ![0] bcast_S1700000_S1700000x1_0 dV)
    (extf .f32 (Host.gather gather_S100000x10_S1700000x1_S1700000x10_1_0_n_n_0_1_110 T
      (broadcastInDim S1700000x1 ![0] bcast_S1700000_S1700000x1_0 gV)) bitsLt_bf16_f32)

theorem aggRows10_apply (dV gV : Arr S1700000 .i32) (T : Arr S100000x10 .bf16) (n : Fin 100000) (l : Fin 10) :
    aggRows10 dV gV T (ix2 n l)
      = scat (fun e => dV (ix1 e)) (fun e => T (ix2 (rowOf (gV (ix1 e))) l)) n := by
  unfold aggRows10
  rw [Cert.LibScatter.scatterAdd_ideal]
  rw [Cert.LibScatter.hostScatterAdd_rows_apply _ rfl rfl rfl rfl]
  unfold scat
  refine congrArg₂ (fun a b : EReal => a + b) ?_ ?_
  · exact Ideal.ofBits_zero_f32
  · refine Finset.sum_congr rfl fun e _ => ?_
    rw [words_column]
    refine if_congr Iff.rfl ?_ rfl
    rw [extf_apply, Cert.LibGather.gather_rows_apply _ rfl rfl rfl rfl rfl rfl rfl (by norm_num)]
    show T (ix2 (rowOf (broadcastInDim S1700000x1 ![0] bcast_S1700000_S1700000x1_0 gV (ix2 e 0))) l) = T (ix2 (rowOf (gV (ix1 e))) l)
    rw [words_column]

/-- The normaliser column at (n, 0) is the normaliser at n. -/
theorem column_apply (v : Arr S100000 .f32) (n : Fin 100000) :
    shapeCast S100000x1 v shapeCasts_S100000_S100000x1 (ix2 n 0) = v (ix1 n) :=
  Idealize.ShloMosaic.Keepdims.shapeCast_a_a1_apply v _ n 0

/-- A bias vector viewed as one row, read at (0, l). -/
theorem row128_apply (v : Arr S128 .f32) (l : Fin 128) :
    shapeCast S1x128 v shapeCasts_S128_S1x128 (ix2 0 l) = v (ix1 l) :=
  Cert.RowVector.shapeCast_row v _ l

theorem row10_apply (v : Arr S10 .f32) (l : Fin 10) :
    shapeCast S1x10 v shapeCasts_S10_S1x10 (ix2 0 l) = v (ix1 l) :=
  Cert.RowVector.shapeCast_row v _ l

end Cert.KernelIdeal.HostRead

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.Region0.lean ====
/-
  The first row-tiled kernel's output array as one function of its operand arrays.

  The kernel runs over 20 grid points. Point t stages rows 5000 t … 5000 t + 4999 of the feature array and of the
  normaliser column, and the whole weight matrix, and stores a [5000,128] tile: the staged feature rows against the
  weights, each row scaled by its entry of the column. Narrowing and widening the format are the identity on
  extended reals, so the stored tile is that product exactly. The tile of point t is written back to rows
  5000 t … 5000 t + 4999 of the output array; the 20 tiles fill its 100000 rows, so after the region the array
  holds G0 of the operand arrays at every index.
-/
import proofs.«126157_j60533269069867_2_alg».proof.Proof.Gen.KernelIdeal.Frame
import proofs.«126157_j60533269069867_2_alg».proof.Proof.Model
import proofs.«126157_j60533269069867_2_alg».proof.Proof.LibPlainDot
import Idealize.ShloMosaic.Lib.Pipeline.Value

noncomputable section

open scoped BigOperators

namespace Cert.KernelIdeal.RegionValue

open Cert.KernelIdeal Cert.KernelIdeal.Gen Cert.Gcn Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

namespace Region0

/-- A [5000,1] column broadcast along the rows' 128 lanes reads the column's entry of the row. -/
theorem col_to_128 (x : Vec Ideal S5000x1 .f32) (p : Fin 5000) (q : Fin 128) :
    broadcastTo S5000x128 x broadcasts_S5000x1_S5000x128 (ix2 p q) = x (ix2 p 0) := by
  refine broadcastTo_apply x _ (ix2 p q) (ix2 p 0) fun a => ?_
  match a with
  | ⟨0, _⟩ => rfl
  | ⟨1, _⟩ => rfl

/-- Entry (p, q) of the tile the first kernel stores: row p of the staged features against column q of the weights,
    scaled by the column's entry of the row. -/
theorem pay0_apply (x0 : Vec Ideal S5000x300 .f32) (x1 : Vec Ideal S300x128 .f32) (x2 : Vec Ideal S5000x1 .f32)
    (p : Fin 5000) (q : Fin 128) :
    k0_pay1 x0 x1 x2 (ix2 p q) = (∑ k : Fin 300, x0 (ix2 p k) * x1 (ix2 k q)) * x2 (ix2 p 0) := by
  unfold k0_pay1
  rw [shapeCast_self]
  refine (congrArg₂ (· * ·) (Cert.PlainDot.matmul_zero_apply dot_S5000x300_S300x128_S5000x128_1_0_0_1_n_n rfl none _ _ p q)
    (col_to_128 x2 p q)).trans ?_
  rfl

/-- The zero offsets, however they are spelt. -/
theorem hz : (![0, 0] : Fin 2 → Nat) = fun _ => 0 := funext fun a => by fin_cases a <;> rfl

/-- One entry of what a point stores against the whole-array function: when the tile's row p is the array's row r
    in the features and in the column, and the weights are the array's, entry (p, q) of the stored tile is entry
    (r, q) of the row-scaled product. -/
theorem pay0_at (A : SX.Idx → EReal) (W : SW1.Idx → EReal) (Dc : SC.Idx → EReal)
    (x0 : Vec Ideal S5000x300 .f32) (x1 : Vec Ideal S300x128 .f32) (x2 : Vec Ideal S5000x1 .f32)
    (j : S5000x128.Idx) (i : SH.Idx) (p : Fin 5000) (q : Fin 128) (r : Fin 100000)
    (hj : j = ix2 p q) (hi : i = ix2 r q)
    (h0 : ∀ k : Fin 300, x0 (ix2 p k) = A (ix2 r k))
    (h1 : ∀ k : Fin 300, x1 (ix2 k q) = W (ix2 k q))
    (h2 : x2 (ix2 p 0) = Dc (ix2 r 0)) :
    k0_pay1 x0 x1 x2 j = G0 A W Dc i := by
  subst hj hi
  rw [pay0_apply, h2]
  show _ = (∑ k : Fin 300, A (ix2 r k) * W (ix2 k q)) * Dc (ix2 r 0)
  refine congrArg (· * Dc (ix2 r 0)) (Finset.sum_congr rfl fun k _ => ?_)
  rw [h0, h1]

/-- The index maps over the grid: the row-tiled windows sit at block row t, the whole windows at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature tile at point t holds rows 5000 t … 5000 t + 4999 of the features. -/
theorem blk0_0_apply (c : Dev nD) (t : Fin cfg0.N) (p : Fin 5000) (k : Fin 300) (r : Fin 100000)
    (hr : r.val = t.val * 5000 + p.val) :
    (iblk0 V c 0 t : Vec Ideal S5000x300 .f32) (ix2 p k) = (V c main_arg0 : SX.Idx → EReal) (ix2 r k) := by
  obtain ⟨e0, e1, -⟩ := idx_facts0 t
  unfold iblk0
  rw [View.read_apply]
  show (V c main_arg0 : SX.Idx → EReal) _ = _
  refine congrArg (V c main_arg0 : SX.Idx → EReal) (funext fun a => Fin.ext ?_)
  match a with
  | ⟨0, _⟩ => show win0_0.index t (0 : Fin 2) * 5000 + 1 * p.val = r.val; omega
  | ⟨1, _⟩ => show win0_0.index t (1 : Fin 2) * 300 + 1 * k.val = k.val; omega

/-- The weight window holds the whole weight matrix at every point. -/
theorem blk0_1_apply (c : Dev nD) (t : Fin cfg0.N) (k : Fin 300) (q : Fin 128) :
    (iblk0 V c 1 t : Vec Ideal S300x128 .f32) (ix2 k q) = (V c main_arg2 : SW1.Idx → EReal) (ix2 k q) := by
  obtain ⟨-, -, e0, e1, -⟩ := idx_facts0 t
  unfold iblk0
  rw [View.read_apply]
  show (V c main_arg2 : SW1.Idx → EReal) _ = _
  refine congrArg (V c main_arg2 : SW1.Idx → EReal) (funext fun a => Fin.ext ?_)
  match a with
  | ⟨0, _⟩ => show win0_1.index t (0 : Fin 2) * 300 + 1 * k.val = k.val; omega
  | ⟨1, _⟩ => show win0_1.index t (1 : Fin 2) * 128 + 1 * q.val = q.val; omega

/-- The column tile at point t holds rows 5000 t … 5000 t + 4999 of the column. -/
theorem blk0_2_apply (c : Dev nD) (t : Fin cfg0.N) (p : Fin 5000) (r : Fin 100000)
    (hr : r.val = t.val * 5000 + p.val) :
    (iblk0 V c 2 t : Vec Ideal S5000x1 .f32) (ix2 p 0) = (V c main_v17 : SC.Idx → EReal) (ix2 r 0) := by
  obtain ⟨-, -, -, -, e0, e1, -⟩ := idx_facts0 t
  unfold iblk0
  rw [View.read_apply]
  show (V c main_v17 : SC.Idx → EReal) _ = _
  refine congrArg (V c main_v17 : SC.Idx → EReal) (funext fun a => Fin.ext ?_)
  match a with
  | ⟨0, _⟩ => show win0_2.index t (0 : Fin 2) * 5000 + 1 * p.val = r.val; omega
  | ⟨1, _⟩ => show win0_2.index t (1 : Fin 2) * 1 + 1 * (0 : Fin 1).val = (0 : Fin 1).val; omega

/-- What point t writes back is block t of the row-scaled product of the arrays as the region finds them. -/
theorem flushed0_eq (c : Dev nD) (t : Fin cfg0.N) :
    (dat0 (F := Ideal) V c).flushed 3 t
      = ((cfg0.win 3).blk t).view.read (Elt Ideal) (G0 (V c main_arg0) (V c main_arg2) (V c main_v17)) := by
  show (cfg0.win 3).cut (grid0.coords t) ((dat0 V c).after 3 t) = _
  rw [after0_3]
  unfold out0_3
  rw [View.canon_unit_zero hz]
  simp only [View.ld_unit_zero (S := S5000x300) hz, View.ld_unit_zero (S := S300x128) hz, View.ld_unit_zero (S := S5000x1) hz]
  funext j
  show k0_pay1 (iblk0 V c 0 t) (iblk0 V c 1 t) (iblk0 V c 2 t) j
      = G0 (V c main_arg0) (V c main_arg2) (V c main_v17) (((cfg0.win 3).blk t).view.emb j)
  obtain ⟨-, -, -, -, -, -, e0, e1⟩ := idx_facts0 t
  have hN : cfg0.N = 20 := N_0
  have ht : t.val < 20 := hN ▸ t.isLt
  have hj0 : (j 0).val < 5000 := (j 0).isLt
  have hj1 : (j 1).val < 128 := (j 1).isLt
  refine pay0_at _ _ _ _ _ _ j _ ⟨(j 0).val, hj0⟩ ⟨(j 1).val, hj1⟩ ⟨t.val * 5000 + (j 0).val, by omega⟩ ?_ ?_
    (fun k => blk0_0_apply V c t _ k _ rfl) (fun k => blk0_1_apply V c t k _) (blk0_2_apply V c t _ _ rfl)
  · funext a
    match a with
    | ⟨0, _⟩ => rfl
    | ⟨1, _⟩ => rfl
  · funext a
    apply Fin.ext
    match a with
    | ⟨0, _⟩ => show win0_3.index t (0 : Fin 2) * 5000 + 1 * (j 0).val = t.val * 5000 + (j 0).val; omega
    | ⟨1, _⟩ => show win0_3.index t (1 : Fin 2) * 128 + 1 * (j 1).val = (j 1).val; omega

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

/-- Every row of the output array lies in the block of the point its row number divided by 5000 names. -/
theorem cover0 (i : S100000x128.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  obtain ⟨t, htv⟩ : ∃ t : Fin cfg0.N, t.val = (i 0).val / 5000 := ⟨⟨(i 0).val / 5000, by rw [hN]; omega⟩, rfl⟩
  obtain ⟨-, -, -, -, -, -, e0, e1⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

end Region0

open Region0 in
/-- The first kernel's output array after its region: the features against the weights, each row scaled by its
    entry of the column. -/
theorem final0 (c : Dev nD) :
    (dat0 (F := Ideal) V c).arrAt 3 cfg0.N = G0 (V c main_arg0) (V c main_arg2) (V c main_v17) :=
  (dat0 (F := Ideal) V c).arrAt_eq_of_cover 3 _ (fun t _ => flushed0_eq V c t) cover0

end Cert.KernelIdeal.RegionValue

end
-- ==== Proof.Region1.lean ====
/-
  The second row-tiled kernel's output array as one function of its operand arrays.

  The kernel runs over 20 grid points. Point t stages rows 5000 t … 5000 t + 4999 of the summed messages and of the
  normaliser column, the whole bias row and the whole second weight matrix, and stores a [5000,10] tile: each
  staged row scaled by its entry of the column, biased, clipped at zero, taken against the weights, and scaled by
  the column's entry once more. The zero the clip compares with is the zero word read as an extended real. The tile
  of point t is written back to rows 5000 t … 5000 t + 4999 of the output array; the 20 tiles fill its 100000 rows,
  so after the region the array holds G1 of the operand arrays at every index.
-/
import proofs.«126157_j60533269069867_2_alg».proof.Proof.Gen.KernelIdeal.Frame
import proofs.«126157_j60533269069867_2_alg».proof.Proof.Model
import proofs.«126157_j60533269069867_2_alg».proof.Proof.LibPlainDot
import Idealize.ShloMosaic.Lib.Pipeline.Value

noncomputable section

open scoped BigOperators

namespace Cert.KernelIdeal.RegionValue

open Cert.KernelIdeal Cert.KernelIdeal.Gen Cert.Gcn Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

namespace Region1

/-- A [5000,1] column broadcast along 128 lanes reads the column's entry of the row. -/
theorem col_to_128 (x : Vec Ideal S5000x1 .f32) (p : Fin 5000) (q : Fin 128) :
    broadcastTo S5000x128 x broadcasts_S5000x1_S5000x128 (ix2 p q) = x (ix2 p 0) := by
  refine broadcastTo_apply x _ (ix2 p q) (ix2 p 0) fun a => ?_
  match a with
  | ⟨0, _⟩ => rfl
  | ⟨1, _⟩ => rfl

/-- A [5000,1] column broadcast along 10 lanes reads the column's entry of the row. -/
theorem col_to_10 (x : Vec Ideal S5000x1 .f32) (p : Fin 5000) (q : Fin 10) :
    broadcastTo S5000x10 x broadcasts_S5000x1_S5000x10 (ix2 p q) = x (ix2 p 0) := by
  refine broadcastTo_apply x _ (ix2 p q) (ix2 p 0) fun a => ?_
  match a with
  | ⟨0, _⟩ => rfl
  | ⟨1, _⟩ => rfl

/-- A [1,128] row broadcast down 5000 rows reads the row's entry of the lane. -/
theorem row_to_5000 (x : Vec Ideal S1x128 .f32) (p : Fin 5000) (l : Fin 128) :
    broadcastTo S5000x128 x broadcasts_S1x128_S5000x128 (ix2 p l) = x (ix2 0 l) := by
  refine broadcastTo_apply x _ (ix2 p l) (ix2 0 l) fun a => ?_
  match a with
  | ⟨0, _⟩ => rfl
  | ⟨1, _⟩ => rfl

/-- Entry (p, q) of the tile the second kernel stores: row p of the first operand scaled by the column's entry,
    biased by the row vector, clipped at zero, against column q of the weights, scaled by the column's entry. -/
theorem pay1_apply (x0 : Vec Ideal S5000x128 .f32) (x2 : Vec Ideal S5000x1 .f32) (x6 : Vec Ideal S1x128 .f32)
    (x13 : Vec Ideal S128x10 .f32) (x16 : Vec Ideal S5000x1 .f32) (p : Fin 5000) (q : Fin 10) :
    k1_pay1 x0 x2 x6 x13 x16 (ix2 p q)
      = (∑ l : Fin 128, max (x0 (ix2 p l) * x2 (ix2 p 0) + x6 (ix2 0 l)) 0 * x13 (ix2 l q)) * x16 (ix2 p 0) := by
  unfold k1_pay1
  simp only [shapeCast_self]
  refine (congrArg₂ (· * ·) (Cert.PlainDot.matmul_zero_apply dot_S5000x128_S128x10_S5000x10_1_0_0_1_n_n rfl none _ _ p q)
    (col_to_10 x16 p q)).trans ?_
  refine congrArg (· * x16 (ix2 p 0)) (Finset.sum_congr rfl fun l _ => ?_)
  refine congrArg (· * x13 (ix2 l q)) ?_
  show max (x0 (ix2 p l) * broadcastTo S5000x128 x2 broadcasts_S5000x1_S5000x128 (ix2 p l)
      + broadcastTo S5000x128 x6 broadcasts_S1x128_S5000x128 (ix2 p l)) (Ideal.ofBits .f32 0x00000000#32) = _
  rw [col_to_128, row_to_5000, Ideal.ofBits_zero_f32]

/-- The zero offsets, however they are spelt. -/
theorem hz : (![0, 0] : Fin 2 → Nat) = fun _ => 0 := funext fun a => by fin_cases a <;> rfl

/-- One entry of what a point stores against the whole-array function: when the tile's row p is the array's row r
    in the first operand and in the column, and the bias row and the weights are the arrays', entry (p, q) of the
    stored tile is entry (r, q) of the fused layer. -/
theorem pay1_at (A : SH.Idx → EReal) (b : SR1.Idx → EReal) (Dc : SC.Idx → EReal) (W : SW2.Idx → EReal)
    (x0 : Vec Ideal S5000x128 .f32) (x2 : Vec Ideal S5000x1 .f32) (x6 : Vec Ideal S1x128 .f32)
    (x13 : Vec Ideal S128x10 .f32)
    (j : S5000x10.Idx) (i : SO.Idx) (p : Fin 5000) (q : Fin 10) (r : Fin 100000)
    (hj : j = ix2 p q) (hi : i = ix2 r q)
    (h0 : ∀ l : Fin 128, x0 (ix2 p l) = A (ix2 r l))
    (h2 : x2 (ix2 p 0) = Dc (ix2 r 0))
    (h6 : ∀ l : Fin 128, x6 (ix2 0 l) = b (ix2 0 l))
    (h13 : ∀ l : Fin 128, x13 (ix2 l q) = W (ix2 l q)) :
    k1_pay1 x0 x2 x6 x13 x2 j = G1 A b Dc W i := by
  subst hj hi
  rw [pay1_apply, h2]
  show _ = (∑ l : Fin 128, max (A (ix2 r l) * Dc (ix2 r 0) + b (ix2 0 l)) 0 * W (ix2 l q)) * Dc (ix2 r 0)
  refine congrArg (· * Dc (ix2 r 0)) (Finset.sum_congr rfl fun l _ => ?_)
  rw [h0, h6, h13]

/-- The index maps over the grid: the row-tiled windows sit at block row t, the whole windows at block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The first operand's tile at point t holds rows 5000 t … 5000 t + 4999 of the array. -/
theorem blk1_0_apply (c : Dev nD) (t : Fin cfg1.N) (p : Fin 5000) (l : Fin 128) (r : Fin 100000)
    (hr : r.val = t.val * 5000 + p.val) :
    (iblk1 V c 0 t : Vec Ideal S5000x128 .f32) (ix2 p l) = (V c main_v29 : SH.Idx → EReal) (ix2 r l) := by
  obtain ⟨e0, e1, -⟩ := idx_facts1 t
  unfold iblk1
  rw [View.read_apply]
  show (V c main_v29 : SH.Idx → EReal) _ = _
  refine congrArg (V c main_v29 : SH.Idx → EReal) (funext fun a => Fin.ext ?_)
  match a with
  | ⟨0, _⟩ => show win1_0.index t (0 : Fin 2) * 5000 + 1 * p.val = r.val; omega
  | ⟨1, _⟩ => show win1_0.index t (1 : Fin 2) * 128 + 1 * l.val = l.val; omega

/-- The bias window holds the whole bias row at every point. -/
theorem blk1_1_apply (c : Dev nD) (t : Fin cfg1.N) (l : Fin 128) :
    (iblk1 V c 1 t : Vec Ideal S1x128 .f32) (ix2 0 l) = (V c main_v30 : SR1.Idx → EReal) (ix2 0 l) := by
  obtain ⟨-, -, e0, e1, -⟩ := idx_facts1 t
  unfold iblk1
  rw [View.read_apply]
  show (V c main_v30 : SR1.Idx → EReal) _ = _
  refine congrArg (V c main_v30 : SR1.Idx → EReal) (funext fun a => Fin.ext ?_)
  match a with
  | ⟨0, _⟩ => show win1_1.index t (0 : Fin 2) * 1 + 1 * (0 : Fin 1).val = (0 : Fin 1).val; omega
  | ⟨1, _⟩ => show win1_1.index t (1 : Fin 2) * 128 + 1 * l.val = l.val; omega

/-- The column tile at point t holds rows 5000 t … 5000 t + 4999 of the column. -/
theorem blk1_2_apply (c : Dev nD) (t : Fin cfg1.N) (p : Fin 5000) (r : Fin 100000)
    (hr : r.val = t.val * 5000 + p.val) :
    (iblk1 V c 2 t : Vec Ideal S5000x1 .f32) (ix2 p 0) = (V c main_v17 : SC.Idx → EReal) (ix2 r 0) := by
  obtain ⟨-, -, -, -, e0, e1, -⟩ := idx_facts1 t
  unfold iblk1
  rw [View.read_apply]
  show (V c main_v17 : SC.Idx → EReal) _ = _
  refine congrArg (V c main_v17 : SC.Idx → EReal) (funext fun a => Fin.ext ?_)
  match a with
  | ⟨0, _⟩ => show win1_2.index t (0 : Fin 2) * 5000 + 1 * p.val = r.val; omega
  | ⟨1, _⟩ => show win1_2.index t (1 : Fin 2) * 1 + 1 * (0 : Fin 1).val = (0 : Fin 1).val; omega

/-- The weight window holds the whole weight matrix at every point. -/
theorem blk1_3_apply (c : Dev nD) (t : Fin cfg1.N) (l : Fin 128) (q : Fin 10) :
    (iblk1 V c 3 t : Vec Ideal S128x10 .f32) (ix2 l q) = (V c main_arg4 : SW2.Idx → EReal) (ix2 l q) := by
  obtain ⟨-, -, -, -, -, -, e0, e1, -⟩ := idx_facts1 t
  unfold iblk1
  rw [View.read_apply]
  show (V c main_arg4 : SW2.Idx → EReal) _ = _
  refine congrArg (V c main_arg4 : SW2.Idx → EReal) (funext fun a => Fin.ext ?_)
  match a with
  | ⟨0, _⟩ => show win1_3.index t (0 : Fin 2) * 128 + 1 * l.val = l.val; omega
  | ⟨1, _⟩ => show win1_3.index t (1 : Fin 2) * 10 + 1 * q.val = q.val; omega

/-- What point t writes back is block t of the fused layer of the arrays as the region finds them. -/
theorem flushed1_eq (c : Dev nD) (t : Fin cfg1.N) :
    (dat1 (F := Ideal) V c).flushed 4 t
      = ((cfg1.win 4).blk t).view.read (Elt Ideal)
          (G1 (V c main_v29) (V c main_v30) (V c main_v17) (V c main_arg4)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz,
    View.ld_unit_zero (S := S5000x1) hz, View.ld_unit_zero (S := S128x10) hz]
  funext j
  show k1_pay1 (iblk1 V c 0 t) (iblk1 V c 2 t) (iblk1 V c 1 t) (iblk1 V c 3 t) (iblk1 V c 2 t) j
      = G1 (V c main_v29) (V c main_v30) (V c main_v17) (V c main_arg4) (((cfg1.win 4).blk t).view.emb j)
  obtain ⟨-, -, -, -, -, -, -, -, e0, e1⟩ := idx_facts1 t
  have hN : cfg1.N = 20 := N_1
  have ht : t.val < 20 := hN ▸ t.isLt
  have hj0 : (j 0).val < 5000 := (j 0).isLt
  have hj1 : (j 1).val < 10 := (j 1).isLt
  refine pay1_at _ _ _ _ _ _ _ _ j _ ⟨(j 0).val, hj0⟩ ⟨(j 1).val, hj1⟩ ⟨t.val * 5000 + (j 0).val, by omega⟩ ?_ ?_
    (fun l => blk1_0_apply V c t _ l _ rfl) (blk1_2_apply V c t _ _ rfl) (fun l => blk1_1_apply V c t l)
    (fun l => blk1_3_apply V c t l _)
  · funext a
    match a with
    | ⟨0, _⟩ => rfl
    | ⟨1, _⟩ => rfl
  · funext a
    apply Fin.ext
    match a with
    | ⟨0, _⟩ => show win1_4.index t (0 : Fin 2) * 5000 + 1 * (j 0).val = t.val * 5000 + (j 0).val; omega
    | ⟨1, _⟩ => show win1_4.index t (1 : Fin 2) * 10 + 1 * (j 1).val = (j 1).val; omega

/-- An index of the output array is in point t's block iff each coordinate is in the block's range on its axis. -/
theorem mem_blk1 (t : Fin cfg1.N) (i : S100000x10.Idx) :
    i ∈ ((cfg1.win 4).blk t).view.set ↔ ∀ a : Fin 2, win1_4.index t a * S5000x10.size a ≤ (i a).val
      ∧ (i a).val < win1_4.index t a * S5000x10.size a + S5000x10.size a := by
  show i ∈ ((View.whole main_v31).slice (win1_4.rect t)).set ↔ _
  rw [View.set_slice_whole, Rect.mem_set_unit]
  exact Iff.rfl

/-- Every row of the output array lies in the block of the point its row number divided by 5000 names. -/
theorem cover1 (i : S100000x10.Idx) :
    ∃ t : Fin cfg1.N, (cfg1.win 4).flush t = true ∧ i ∈ ((cfg1.win 4).blk t).view.set := by
  have hN : cfg1.N = 20 := N_1
  have hi0 : (i 0).val < 100000 := (i 0).isLt
  have hi1 : (i 1).val < 10 := (i 1).isLt
  obtain ⟨t, htv⟩ : ∃ t : Fin cfg1.N, t.val = (i 0).val / 5000 := ⟨⟨(i 0).val / 5000, by rw [hN]; omega⟩, rfl⟩
  obtain ⟨-, -, -, -, -, -, -, -, e0, e1⟩ := idx_facts1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 10 ≤ (i 1).val ∧ (i 1).val < win1_4.index t (1 : Fin 2) * 10 + 10
    omega

end Region1

open Region1 in
/-- The second kernel's output array after its region: the fused layer of its operand arrays. -/
theorem final1 (c : Dev nD) :
    (dat1 (F := Ideal) V c).arrAt 4 cfg1.N = G1 (V c main_v29) (V c main_v30) (V c main_v17) (V c main_arg4) :=
  (dat1 (F := Ideal) V c).arrAt_eq_of_cover 4 _ (fun t _ => flushed1_eq V c t) cover1

end Cert.KernelIdeal.RegionValue

end
-- ==== Proof.Region2.lean ====
/-
  The third row-tiled kernel's output array as one function of its operand arrays.

  The kernel runs over 20 grid points. Point t stages rows 5000 t … 5000 t + 4999 of the summed messages and of the
  normaliser column and the whole bias row, and stores a [5000,10] tile: each staged entry scaled by its row's
  entry of the column and biased by its lane's entry of the row. The tile of point t is written back to rows
  5000 t … 5000 t + 4999 of the output array; the 20 tiles fill its 100000 rows, so after the region the array
  holds G2 of the operand arrays at every index.
-/
import proofs.«126157_j60533269069867_2_alg».proof.Proof.Gen.KernelIdeal.Frame
import proofs.«126157_j60533269069867_2_alg».proof.Proof.Model
import proofs.«126157_j60533269069867_2_alg».proof.Proof.LibPlainDot
import Idealize.ShloMosaic.Lib.Pipeline.Value

noncomputable section

open scoped BigOperators

namespace Cert.KernelIdeal.RegionValue

open Cert.KernelIdeal Cert.KernelIdeal.Gen Cert.Gcn Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

namespace Region2

/-- A [5000,1] column broadcast along 10 lanes reads the column's entry of the row. -/
theorem col_to_10 (x : Vec Ideal S5000x1 .f32) (p : Fin 5000) (q : Fin 10) :
    broadcastTo S5000x10 x broadcasts_S5000x1_S5000x10 (ix2 p q) = x (ix2 p 0) := by
  refine broadcastTo_apply x _ (ix2 p q) (ix2 p 0) fun a => ?_
  match a with
  | ⟨0, _⟩ => rfl
  | ⟨1, _⟩ => rfl

/-- A [1,10] row broadcast down 5000 rows reads the row's entry of the lane. -/
theorem row10_to_5000 (x : Vec Ideal S1x10 .f32) (p : Fin 5000) (q : Fin 10) :
    broadcastTo S5000x10 x broadcasts_S1x10_S5000x10 (ix2 p q) = x (ix2 0 q) := by
  refine broadcastTo_apply x _ (ix2 p q) (ix2 0 q) fun a => ?_
  match a with
  | ⟨0, _⟩ => rfl
  | ⟨1, _⟩ => rfl

/-- Entry (p, q) of the tile the third kernel stores: the operand's entry scaled by the column's entry of the row,
    biased by the row vector's entry of the lane. -/
theorem pay2_apply (x0 : Vec Ideal S5000x10 .f32) (x2 : Vec Ideal S5000x1 .f32) (x6 : Vec Ideal S1x10 .f32)
    (p : Fin 5000) (q : Fin 10) :
    k2_pay1 x0 x2 x6 (ix2 p q) = x0 (ix2 p q) * x2 (ix2 p 0) + x6 (ix2 0 q) := by
  unfold k2_pay1
  simp only [shapeCast_self]
  show x0 (ix2 p q) * broadcastTo S5000x10 x2 broadcasts_S5000x1_S5000x10 (ix2 p q)
      + broadcastTo S5000x10 x6 broadcasts_S1x10_S5000x10 (ix2 p q) = _
  rw [col_to_10, row10_to_5000]

/-- The zero offsets, however they are spelt. -/
theorem hz : (![0, 0] : Fin 2 → Nat) = fun _ => 0 := funext fun a => by fin_cases a <;> rfl

/-- One entry of what a point stores against the whole-array function: when the tile's row p is the array's row r
    in the operand and in the column, and the bias row is the array's, entry (p, q) of the stored tile is entry
    (r, q) of the scaled and biased array. -/
theorem pay2_at (A : SO.Idx → EReal) (b : SR2.Idx → EReal) (Dc : SC.Idx → EReal)
    (x0 : Vec Ideal S5000x10 .f32) (x2 : Vec Ideal S5000x1 .f32) (x6 : Vec Ideal S1x10 .f32)
    (j : S5000x10.Idx) (i : SO.Idx) (p : Fin 5000) (q : Fin 10) (r : Fin 100000)
    (hj : j = ix2 p q) (hi : i = ix2 r q)
    (h0 : x0 (ix2 p q) = A (ix2 r q))
    (h2 : x2 (ix2 p 0) = Dc (ix2 r 0))
    (h6 : x6 (ix2 0 q) = b (ix2 0 q)) :
    k2_pay1 x0 x2 x6 j = G2 A b Dc i := by
  subst hj hi
  rw [pay2_apply, h0, h2, h6]
  rfl

/-- The index maps over the grid: the row-tiled windows sit at block row t, the whole window at block 0. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The operand's tile at point t holds rows 5000 t … 5000 t + 4999 of the array. -/
theorem blk2_0_apply (c : Dev nD) (t : Fin cfg2.N) (p : Fin 5000) (q : Fin 10) (r : Fin 100000)
    (hr : r.val = t.val * 5000 + p.val) :
    (iblk2 V c 0 t : Vec Ideal S5000x10 .f32) (ix2 p q) = (V c main_v42 : SO.Idx → EReal) (ix2 r q) := by
  obtain ⟨e0, e1, -⟩ := idx_facts2 t
  unfold iblk2
  rw [View.read_apply]
  show (V c main_v42 : SO.Idx → EReal) _ = _
  refine congrArg (V c main_v42 : SO.Idx → EReal) (funext fun a => Fin.ext ?_)
  match a with
  | ⟨0, _⟩ => show win2_0.index t (0 : Fin 2) * 5000 + 1 * p.val = r.val; omega
  | ⟨1, _⟩ => show win2_0.index t (1 : Fin 2) * 10 + 1 * q.val = q.val; omega

/-- The bias window holds the whole bias row at every point. -/
theorem blk2_1_apply (c : Dev nD) (t : Fin cfg2.N) (q : Fin 10) :
    (iblk2 V c 1 t : Vec Ideal S1x10 .f32) (ix2 0 q) = (V c main_v43 : SR2.Idx → EReal) (ix2 0 q) := by
  obtain ⟨-, -, e0, e1, -⟩ := idx_facts2 t
  unfold iblk2
  rw [View.read_apply]
  show (V c main_v43 : SR2.Idx → EReal) _ = _
  refine congrArg (V c main_v43 : SR2.Idx → EReal) (funext fun a => Fin.ext ?_)
  match a with
  | ⟨0, _⟩ => show win2_1.index t (0 : Fin 2) * 1 + 1 * (0 : Fin 1).val = (0 : Fin 1).val; omega
  | ⟨1, _⟩ => show win2_1.index t (1 : Fin 2) * 10 + 1 * q.val = q.val; omega

/-- The column tile at point t holds rows 5000 t … 5000 t + 4999 of the column. -/
theorem blk2_2_apply (c : Dev nD) (t : Fin cfg2.N) (p : Fin 5000) (r : Fin 100000)
    (hr : r.val = t.val * 5000 + p.val) :
    (iblk2 V c 2 t : Vec Ideal S5000x1 .f32) (ix2 p 0) = (V c main_v17 : SC.Idx → EReal) (ix2 r 0) := by
  obtain ⟨-, -, -, -, e0, e1, -⟩ := idx_facts2 t
  unfold iblk2
  rw [View.read_apply]
  show (V c main_v17 : SC.Idx → EReal) _ = _
  refine congrArg (V c main_v17 : SC.Idx → EReal) (funext fun a => Fin.ext ?_)
  match a with
  | ⟨0, _⟩ => show win2_2.index t (0 : Fin 2) * 5000 + 1 * p.val = r.val; omega
  | ⟨1, _⟩ => show win2_2.index t (1 : Fin 2) * 1 + 1 * (0 : Fin 1).val = (0 : Fin 1).val; omega

/-- What point t writes back is block t of the scaled and biased array of the arrays as the region finds them. -/
theorem flushed2_eq (c : Dev nD) (t : Fin cfg2.N) :
    (dat2 (F := Ideal) V c).flushed 3 t
      = ((cfg2.win 3).blk t).view.read (Elt Ideal) (G2 (V c main_v42) (V c main_v43) (V c main_v17)) := by
  show (cfg2.win 3).cut (grid2.coords t) ((dat2 V c).after 3 t) = _
  rw [after2_3]
  unfold out2_3
  rw [View.canon_unit_zero hz]
  simp only [View.ld_unit_zero (S := S5000x10) hz, View.ld_unit_zero (S := S1x10) hz,
    View.ld_unit_zero (S := S5000x1) hz]
  funext j
  show k2_pay1 (iblk2 V c 0 t) (iblk2 V c 2 t) (iblk2 V c 1 t) j
      = G2 (V c main_v42) (V c main_v43) (V c main_v17) (((cfg2.win 3).blk t).view.emb j)
  obtain ⟨-, -, -, -, -, -, e0, e1⟩ := idx_facts2 t
  have hN : cfg2.N = 20 := N_2
  have ht : t.val < 20 := hN ▸ t.isLt
  have hj0 : (j 0).val < 5000 := (j 0).isLt
  have hj1 : (j 1).val < 10 := (j 1).isLt
  refine pay2_at _ _ _ _ _ _ j _ ⟨(j 0).val, hj0⟩ ⟨(j 1).val, hj1⟩ ⟨t.val * 5000 + (j 0).val, by omega⟩ ?_ ?_
    (blk2_0_apply V c t _ _ _ rfl) (blk2_2_apply V c t _ _ rfl) (blk2_1_apply V c t _)
  · funext a
    match a with
    | ⟨0, _⟩ => rfl
    | ⟨1, _⟩ => rfl
  · funext a
    apply Fin.ext
    match a with
    | ⟨0, _⟩ => show win2_3.index t (0 : Fin 2) * 5000 + 1 * (j 0).val = t.val * 5000 + (j 0).val; omega
    | ⟨1, _⟩ => show win2_3.index t (1 : Fin 2) * 10 + 1 * (j 1).val = (j 1).val; omega

/-- An index of the output array is in point t's block iff each coordinate is in the block's range on its axis. -/
theorem mem_blk2 (t : Fin cfg2.N) (i : S100000x10.Idx) :
    i ∈ ((cfg2.win 3).blk t).view.set ↔ ∀ a : Fin 2, win2_3.index t a * S5000x10.size a ≤ (i a).val
      ∧ (i a).val < win2_3.index t a * S5000x10.size a + S5000x10.size a := by
  show i ∈ ((View.whole main_v44).slice (win2_3.rect t)).set ↔ _
  rw [View.set_slice_whole, Rect.mem_set_unit]
  exact Iff.rfl

/-- Every row of the output array lies in the block of the point its row number divided by 5000 names. -/
theorem cover2 (i : S100000x10.Idx) :
    ∃ t : Fin cfg2.N, (cfg2.win 3).flush t = true ∧ i ∈ ((cfg2.win 3).blk t).view.set := by
  have hN : cfg2.N = 20 := N_2
  have hi0 : (i 0).val < 100000 := (i 0).isLt
  have hi1 : (i 1).val < 10 := (i 1).isLt
  obtain ⟨t, htv⟩ : ∃ t : Fin cfg2.N, t.val = (i 0).val / 5000 := ⟨⟨(i 0).val / 5000, by rw [hN]; omega⟩, rfl⟩
  obtain ⟨-, -, -, -, -, -, e0, e1⟩ := idx_facts2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 10 ≤ (i 1).val ∧ (i 1).val < win2_3.index t (1 : Fin 2) * 10 + 10
    omega

end Region2

open Region2 in
/-- The third kernel's output array after its region: its operand scaled row by row and biased. -/
theorem final2 (c : Dev nD) :
    (dat2 (F := Ideal) V c).arrAt 3 cfg2.N = G2 (V c main_v42) (V c main_v43) (V c main_v17) :=
  (dat2 (F := Ideal) V c).arrAt_eq_of_cover 3 _ (fun t _ => flushed2_eq V c t) cover2

end Cert.KernelIdeal.RegionValue

end
-- ==== Proof.KHost2.lean ====
/-
  The three kernels and the message passing between them, composed.  The first kernel leaves the scaled
  projections; they are gathered at the source words and added at the destination words; the second kernel scales,
  biases, clips, projects again and scales; its output is gathered and added the same way; the third kernel scales
  and biases.  Each stage is read off the boundary contents before it, and the result is the composition.
-/
import proofs.«126157_j60533269069867_2_alg».proof.Proof.KHost1
import proofs.«126157_j60533269069867_2_alg».proof.Proof.KRead
import proofs.«126157_j60533269069867_2_alg».proof.Proof.Region0
import proofs.«126157_j60533269069867_2_alg».proof.Proof.Region1
import proofs.«126157_j60533269069867_2_alg».proof.Proof.Region2

set_option maxRecDepth 16384

noncomputable section

namespace Cert.KernelIdeal.HostValue

open Idealize.ShloMosaic Idealize.ShloMosaic.TcCoe Idealize.ShloMosaic.StableHlo Idealize.SL.Sem
open Cert.KernelIdeal Cert.KernelIdeal.Gen Cert.Gcn
open Cert.KernelIdeal.HostRead (aggRows128 aggRows10)

/-- The source words wrapped for a gather: a negative word plus 100000, any other word itself. -/
def gsrcOf (E1 : Arr S2x1600000 .i32) : Arr S1700000 .i32 :=
  select (cmpi .slt (srcOf E1) (broadcastInDim S1700000 ![] bcast_S_S1700000 (constantI S_ 32 0#32)))
    (addi (srcOf E1) (broadcastInDim S1700000 ![] bcast_S_S1700000 (constantI S_ 32 100000#32)))
    (srcOf E1)

variable (m : (ℓ : Loc nD τ sig) → Buf (Elt Ideal) ℓ) (ρ : Dev nD → PrngReg) (c : Dev nD)

/-- The first kernel's table: the scaled projections. -/
def table1 : Arr S100000x128 .bf16 :=
  G0 (m ((c : Thread nD τ).loc main_arg0)) (m ((c : Thread nD τ).loc main_arg2)) (dcolOf (m ((c : Thread nD τ).loc main_arg1)))

/-- The first aggregation. -/
def agg1 : Arr S100000x128 .f32 :=
  aggRows128 (dstOf (m ((c : Thread nD τ).loc main_arg1))) (gsrcOf (m ((c : Thread nD τ).loc main_arg1))) (table1 m c)

/-- The second kernel's table. -/
def table2 : Arr S100000x10 .bf16 :=
  G1 (agg1 m c) (shapeCast S1x128 (m ((c : Thread nD τ).loc main_arg3)) shapeCasts_S128_S1x128)
    (dcolOf (m ((c : Thread nD τ).loc main_arg1))) (m ((c : Thread nD τ).loc main_arg4))

/-- The second aggregation. -/
def agg2 : Arr S100000x10 .f32 :=
  aggRows10 (dstOf (m ((c : Thread nD τ).loc main_arg1))) (gsrcOf (m ((c : Thread nD τ).loc main_arg1))) (table2 m c)

theorem w4_v18 : W4 m ρ c (Proc.devRef .tc main_v18) = table1 m c := by
  refine (W4_arr m ρ c 3).trans ?_
  rw [Cert.KernelIdeal.RegionValue.final0 (V3 m ρ) c]
  show G0 (W3 m ρ c (Proc.devRef .tc main_arg0)) (W3 m ρ c (Proc.devRef .tc main_arg2)) (W3 m ρ c (Proc.devRef .tc main_v17)) = _
  rw [w3_arg m ρ c main_arg0 (by simp), w3_arg m ρ c main_arg2 (by simp), w3_v17]
  rfl

theorem w5_v29 : W5 m ρ c (Proc.devRef .tc main_v29) = agg1 m c := by
  show StableHlo.after hostOps1 (W4 m ρ c) (Proc.devRef .tc main_v29) = _
  have h18 := w4_v18 m ρ c
  have h3 := w4_v3 m ρ c
  have h6 := w4_v6 m ρ c
  generalize W4 m ρ c = Wa at h18 h3 h6 ⊢
  dsimp only [hostOps1]; after_results
  rw [h18, h3, h6]; rfl

/-- The first bias as a row. -/
theorem w5_v30 : W5 m ρ c (Proc.devRef .tc main_v30)
    = shapeCast S1x128 (m ((c : Thread nD τ).loc main_arg3)) shapeCasts_S128_S1x128 := by
  show StableHlo.after hostOps1 (W4 m ρ c) (Proc.devRef .tc main_v30) = _
  have h := w4_arg3 m ρ c
  generalize W4 m ρ c = Wa at h ⊢
  dsimp only [hostOps1]; after_results
  show shapeCast S1x128 (Wa (Proc.devRef .tc main_arg3)) shapeCasts_S128_S1x128 = _
  rw [h]

theorem w6_v31 : W6 m ρ c (Proc.devRef .tc main_v31) = table2 m c := by
  refine (W6_arr m ρ c 4).trans ?_
  rw [Cert.KernelIdeal.RegionValue.final1 (V5 m ρ) c]
  show G1 (W5 m ρ c (Proc.devRef .tc main_v29)) (W5 m ρ c (Proc.devRef .tc main_v30)) (W5 m ρ c (Proc.devRef .tc main_v17))
    (W5 m ρ c (Proc.devRef .tc main_arg4)) = _
  rw [w5_v29, w5_v30, w5_v17, (w5_keep m ρ c main_arg4 (by simp)).trans (w4_arg4 m ρ c)]
  rfl

theorem w7_v42 : W7 m ρ c (Proc.devRef .tc main_v42) = agg2 m c := by
  show StableHlo.after hostOps2 (W6 m ρ c) (Proc.devRef .tc main_v42) = _
  have h31 := w6_v31 m ρ c
  have h3 := w6_v3 m ρ c
  have h6 := w6_v6 m ρ c
  generalize W6 m ρ c = Wa at h31 h3 h6 ⊢
  dsimp only [hostOps2]; after_results
  rw [h31, h3, h6]; rfl

/-- The second bias as a row. -/
theorem w7_v43 : W7 m ρ c (Proc.devRef .tc main_v43)
    = shapeCast S1x10 (m ((c : Thread nD τ).loc main_arg5)) shapeCasts_S10_S1x10 := by
  show StableHlo.after hostOps2 (W6 m ρ c) (Proc.devRef .tc main_v43) = _
  have h := w6_arg5 m ρ c
  generalize W6 m ρ c = Wa at h ⊢
  dsimp only [hostOps2]; after_results
  show shapeCast S1x10 (Wa (Proc.devRef .tc main_arg5)) shapeCasts_S10_S1x10 = _
  rw [h]

/-- The result array: the third kernel's output. -/
theorem result_eq : (dat2 (V7 m ρ) c).arrAt 3 cfg2.N
    = G2 (agg2 m c) (shapeCast S1x10 (m ((c : Thread nD τ).loc main_arg5)) shapeCasts_S10_S1x10)
        (dcolOf (m ((c : Thread nD τ).loc main_arg1))) := by
  rw [Cert.KernelIdeal.RegionValue.final2 (V7 m ρ) c]
  show G2 (W7 m ρ c (Proc.devRef .tc main_v42)) (W7 m ρ c (Proc.devRef .tc main_v43)) (W7 m ρ c (Proc.devRef .tc main_v17)) = _
  rw [w7_v42, w7_v43, w7_v17]

end Cert.KernelIdeal.HostValue

end
-- ==== Proof.KValue.lean ====
/-
  The composition of the three kernels and the two aggregations, read at one entry (n, q): it is the model's
  output for the program that scales rows before the gather and after the scatter-add.  Entry (r, l) of the first
  kernel's table is the projection of node r's features on lane l times the normaliser at r; an aggregation at
  (n, l) is the sum over the edges landing on n of the table at the edge's source row; the second kernel's entry is
  the clipped, biased, scaled aggregate projected on the second weights and scaled; the third kernel scales and
  biases the second aggregate.
-/
import proofs.«126157_j60533269069867_2_alg».proof.Proof.KRead

set_option maxRecDepth 16384

noncomputable section

namespace Cert.KernelIdeal.HostRead

open scoped BigOperators
open Idealize.ShloMosaic Idealize.ShloMosaic.ValueIdx
open Cert.KernelIdeal Cert.KernelIdeal.Gen Cert.Gcn

variable (dV gV : Arr S1700000 .i32) (Dv : Arr S100000 .f32) (X : Arr S100000x300 .f32) (W1 : Arr S300x128 .f32)
  (b1 : Arr S128 .f32) (W2 : Arr S128x10 .f32) (b2 : Arr S10 .f32)

/-- The first kernel's table at (r, l). -/
theorem table1_apply (r : Fin 100000) (l : Fin 128) :
    G0 X W1 (shapeCast S100000x1 Dv shapeCasts_S100000_S100000x1) (ix2 r l) = xw X W1 r l * Dv (ix1 r) := by
  show (∑ k : Fin 300, X (ix2 r k) * W1 (ix2 k l)) * (shapeCast S100000x1 Dv shapeCasts_S100000_S100000x1) (ix2 r 0) = _
  rw [column_apply]
  rfl

/-- The second kernel's table at (r, q). -/
theorem table2_apply (r : Fin 100000) (q : Fin 10) :
    G1 (aggRows128 dV gV (G0 X W1 (shapeCast S100000x1 Dv shapeCasts_S100000_S100000x1)))
        (shapeCast S1x128 b1 shapeCasts_S128_S1x128) (shapeCast S100000x1 Dv shapeCasts_S100000_S100000x1) W2 (ix2 r q)
      = kSecond (fun e => gV (ix1 e)) (fun e => dV (ix1 e)) (fun r => Dv (ix1 r)) X W1 b1 W2 r q := by
  show (∑ l : Fin 128, max (aggRows128 dV gV (G0 X W1 (shapeCast S100000x1 Dv shapeCasts_S100000_S100000x1)) (ix2 r l)
      * (shapeCast S100000x1 Dv shapeCasts_S100000_S100000x1) (ix2 r 0) + (shapeCast S1x128 b1 shapeCasts_S128_S1x128) (ix2 0 l)) 0 * W2 (ix2 l q))
      * (shapeCast S100000x1 Dv shapeCasts_S100000_S100000x1) (ix2 r 0) = _
  unfold kSecond kHidden
  rw [column_apply]
  refine congrArg (fun z : EReal => z * Dv (ix1 r)) (Finset.sum_congr rfl fun l _ => ?_)
  rw [aggRows128_apply, row128_apply]
  refine congrArg (fun z : EReal => max (z * Dv (ix1 r) + b1 (ix1 l)) 0 * W2 (ix2 l q)) ?_
  exact congrArg (fun u => scat (fun e => dV (ix1 e)) u r) (funext fun e => table1_apply Dv X W1 _ _)

/-- The result at (n, q). -/
theorem composed_apply (n : Fin 100000) (q : Fin 10) :
    G2 (aggRows10 dV gV
          (G1 (aggRows128 dV gV (G0 X W1 (shapeCast S100000x1 Dv shapeCasts_S100000_S100000x1)))
            (shapeCast S1x128 b1 shapeCasts_S128_S1x128) (shapeCast S100000x1 Dv shapeCasts_S100000_S100000x1) W2))
        (shapeCast S1x10 b2 shapeCasts_S10_S1x10) (shapeCast S100000x1 Dv shapeCasts_S100000_S100000x1) (ix2 n q)
      = kOut (fun e => gV (ix1 e)) (fun e => dV (ix1 e)) (fun r => Dv (ix1 r)) X W1 b1 W2 b2 n q := by
  show aggRows10 dV gV
        (G1 (aggRows128 dV gV (G0 X W1 (shapeCast S100000x1 Dv shapeCasts_S100000_S100000x1)))
          (shapeCast S1x128 b1 shapeCasts_S128_S1x128) (shapeCast S100000x1 Dv shapeCasts_S100000_S100000x1) W2) (ix2 n q)
      * (shapeCast S100000x1 Dv shapeCasts_S100000_S100000x1) (ix2 n 0) + (shapeCast S1x10 b2 shapeCasts_S10_S1x10) (ix2 0 q) = _
  unfold kOut
  rw [aggRows10_apply, column_apply, row10_apply]
  refine congrArg (fun z : EReal => z * Dv (ix1 n) + b2 (ix1 q)) ?_
  exact congrArg (fun u => scat (fun e => dV (ix1 e)) u n) (funext fun e => table2_apply dV gV Dv X W1 b1 W2 _ _)

end Cert.KernelIdeal.HostRead

end
-- ==== Proof.KFinal.lean ====
/-
  The three-kernel program's result array is the model's output, entry by entry, and its run says so: every weakly
  fair execution ends with the result array at that function of the argument arrays and the arguments unchanged.
-/
import proofs.«126157_j60533269069867_2_alg».proof.Proof.KRun
import proofs.«126157_j60533269069867_2_alg».proof.Proof.KHost2
import proofs.«126157_j60533269069867_2_alg».proof.Proof.KValue

set_option maxRecDepth 16384

noncomputable section

namespace Cert.KernelIdeal.Final

open Idealize.ShloMosaic Idealize.ShloMosaic.TcCoe Idealize.ShloMosaic.ValueIdx Idealize.SL.Sem
open Cert.KernelIdeal Cert.KernelIdeal.Gen Cert.Gcn Cert.KernelIdeal.HostValue

variable (m : (ℓ : Loc nD τ sig) → Buf (Elt Ideal) ℓ) (ρ : Dev nD → PrngReg) (c : Dev nD)

/-- The model's output for the row-scaling program, of the arrays in memory m on device c. -/
def result : S100000x10.Idx → EReal := fun i =>
  kOut (fun e => gsrcOf (m ((c : Thread nD τ).loc main_arg1)) (ix1 e))
    (fun e => dstOf (m ((c : Thread nD τ).loc main_arg1)) (ix1 e))
    (fun r => dinvOf (m ((c : Thread nD τ).loc main_arg1)) (ix1 r))
    (m ((c : Thread nD τ).loc main_arg0)) (m ((c : Thread nD τ).loc main_arg2)) (m ((c : Thread nD τ).loc main_arg3))
    (m ((c : Thread nD τ).loc main_arg4)) (m ((c : Thread nD τ).loc main_arg5)) (i 0) (i 1)

theorem result_value : (dat2 (V7 m ρ) c).arrAt 3 cfg2.N = result m c := by
  rw [result_eq]
  funext i
  obtain ⟨n, q, rfl⟩ : ∃ (n : Fin 100000) (q : Fin 10), i = ix2 n q := ⟨i 0, i 1, eq_ix2 i⟩
  unfold agg2 table2 agg1 table1 dcolOf
  exact Cert.KernelIdeal.HostRead.composed_apply _ _ _ _ _ _ _ _ n q

theorem run : θ_run defs (onTc (τ := τ) (main (F := Ideal))) ⟨m, fun _ => 0, ρ⟩ (fun r => ∀ c : Dev nD,
      r.2.mem ((c.tc : Thread nD τ).loc main_v44) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩)
    (Cert.KernelIdeal.RunValue.run (F := Ideal) m ρ)

end Cert.KernelIdeal.Final

end
-- ==== Proof.LibScatterShapes.lean ====
/-
  The landing index of an update for two scatter layouts, in closed form.

  * One scatter axis into a vector (`resultIdx?_vec`): the operand is a vector of length `N`, each of the `M` scalar
    updates carries one start index; update `j` lands at `i` exactly when its start index, read as a signed integer, is
    `i` — a start index outside `[0, N)` lands nowhere.
  * A pair of start indices selecting a (row, column) cell per batch row (`resultIdx?_cells`): the operand is
    `B × R × C`, the updates are `B × K`, and update `(b, k)` lands at `(b, r, c)` exactly when the `k`-th pair of start
    indices is `(r, c)`.
-/
import Idealize.ShloMosaic.PureOps.ShapeOps
import Idealize.ShloMosaic.PureOps.Dims
import Idealize.ShloMosaic.Lib.ValueIdx

namespace Cert.LibScatter

open Idealize.ShloMosaic Idealize.ShloMosaic.ValueIdx

variable {N M B R C K w : Nat}

section Vec

variable (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)

include h1 h2 h3 h4 in
/-- The start of update `j` on the vector's one axis is its start index, read signed. -/
theorem start_vec (j : (⟨1, ![M]⟩ : Shape).Idx) (idx : IVec ⟨2, ![M, 1]⟩ w) :
    d.start j idx 0 = (idx (ix2 (j 0) 0)).toInt := by
  obtain ⟨uw, iw, sd, iv, wf⟩ := d
  subst h1 h2 h3 h4
  unfold ScatterDims.start
  simp only [List.mem_singleton, dite_true]
  congr 1
  congr 1
  funext b
  unfold ScatterDims.siIdx
  match b with
  | ⟨0, _⟩ => simp; rfl
  | ⟨1, _⟩ => simp; rfl

include h1 h2 h3 h4 in
/-- The vector's axis is an inserted one: the window coordinate is zero. -/
theorem window_vec (j : (⟨1, ![M]⟩ : Shape).Idx) : d.window j 0 = 0 := by
  obtain ⟨uw, iw, sd, iv, wf⟩ := d
  subst h1 h2 h3 h4
  unfold ScatterDims.window
  rw [dif_neg]
  simp [ScatterDims.sKept, Shape.kept]

include h1 h2 h3 h4 in
/-- Update `j` lands at `i` exactly when its start index, read signed, is `i`. -/
theorem resultIdx?_vec (j : (⟨1, ![M]⟩ : Shape).Idx) (idx : IVec ⟨2, ![M, 1]⟩ w) (i : (⟨1, ![N]⟩ : Shape).Idx) :
    d.resultIdx? j idx = some i ↔ (idx (ix2 (j 0) 0)).toInt = ((i 0).val : Int) := by
  have hs := start_vec d h1 h2 h3 h4 j idx
  have hw := window_vec d h1 h2 h3 h4 j
  have hi : (i 0).val < N := (i 0).isLt
  unfold ScatterDims.resultIdx?
  constructor
  · intro h
    split at h
    · rename_i hin
      have := congrFun (Option.some.inj h) 0
      have hv := congrArg Fin.val this
      simp only [hs, hw] at hv
      have h0 := (hin 0).1
      rw [hs, hw] at h0
      omega
    · exact absurd h (by simp)
  · intro h
    have hin : ∀ a, 0 ≤ d.start j idx a + ↑(d.window j a) ∧ d.start j idx a + ↑(d.window j a) < (⟨1, ![N]⟩ : Shape).size a := by
      intro a
      have : a = 0 := Subsingleton.elim _ _
      subst this
      rw [hs, hw, h]
      constructor
      · omega
      · show ((i 0).val : Int) + ((0 : Nat) : Int) < ((N : Nat) : Int)
        omega
    rw [dif_pos hin]
    congr 1
    funext a
    have : a = 0 := Subsingleton.elim _ _
    subst this
    apply Fin.ext
    simp only [hs, hw, h]
    omega

end Vec

section Cells

variable (d : ScatterDims ⟨3, ![B, R, C]⟩ ⟨2, ![K, 2]⟩ ⟨2, ![B, K]⟩)
    (h1 : d.updateWindowDims = [0]) (h2 : d.insertedWindowDims = [1, 2]) (h3 : d.scatterDimsToOperandDims = [1, 2])
    (h4 : d.indexVectorDim = 1)

include h1 h2 h3 h4 in
/-- The batch axis has no start index: its start is zero. -/
theorem start_cells0 (j : (⟨2, ![B, K]⟩ : Shape).Idx) (idx : IVec ⟨2, ![K, 2]⟩ w) : d.start j idx 0 = 0 := by
  obtain ⟨uw, iw, sd, iv, wf⟩ := d
  subst h1 h2 h3 h4
  unfold ScatterDims.start
  rw [dif_neg]
  simp

include h1 h2 h3 h4 in
/-- The row's start is the first component of the update's pair of start indices, read signed. -/
theorem start_cells1 (j : (⟨2, ![B, K]⟩ : Shape).Idx) (idx : IVec ⟨2, ![K, 2]⟩ w) :
    d.start j idx 1 = (idx (ix2 (j 1) 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The column's start is the second component of the update's pair of start indices, read signed. -/
theorem start_cells2 (j : (⟨2, ![B, K]⟩ : Shape).Idx) (idx : IVec ⟨2, ![K, 2]⟩ w) :
    d.start j idx 2 = (idx (ix2 (j 1) 1)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The batch axis is the window axis: the window coordinate is the update's batch coordinate. -/
theorem window_cells0 (j : (⟨2, ![B, K]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
/-- Rows and columns are inserted axes: their window coordinate is zero. -/
theorem window_cells1 (j : (⟨2, ![B, K]⟩ : Shape).Idx) : d.window j 1 = 0 := by
  obtain ⟨uw, iw, sd, iv, wf⟩ := d
  subst h1 h2 h3 h4
  unfold ScatterDims.window
  rw [dif_neg]
  simp [ScatterDims.sKept, Shape.kept]

include h1 h2 h3 h4 in
theorem window_cells2 (j : (⟨2, ![B, K]⟩ : Shape).Idx) : d.window j 2 = 0 := by
  obtain ⟨uw, iw, sd, iv, wf⟩ := d
  subst h1 h2 h3 h4
  unfold ScatterDims.window
  rw [dif_neg]
  simp [ScatterDims.sKept, Shape.kept]

include h1 h2 h3 h4 in
/-- Update `(b, k)` lands at `(b', r, c)` exactly when `b' = b` and the `k`-th pair of start indices, read signed, is
    `(r, c)`. -/
theorem resultIdx?_cells (j : (⟨2, ![B, K]⟩ : Shape).Idx) (idx : IVec ⟨2, ![K, 2]⟩ w) (i : (⟨3, ![B, R, C]⟩ : Shape).Idx) :
    d.resultIdx? j idx = some i ↔
      (i 0).val = (j 0).val ∧ (idx (ix2 (j 1) 0)).toInt = ((i 1).val : Int) ∧ (idx (ix2 (j 1) 1)).toInt = ((i 2).val : Int) := by
  have hs0 := start_cells0 d h1 h2 h3 h4 j idx
  have hs1 := start_cells1 d h1 h2 h3 h4 j idx
  have hs2 := start_cells2 d h1 h2 h3 h4 j idx
  have hw0 := window_cells0 d h1 h2 h3 h4 j
  have hw1 := window_cells1 d h1 h2 h3 h4 j
  have hw2 := window_cells2 d h1 h2 h3 h4 j
  have hi0 : (i 0).val < B := (i 0).isLt
  have hi1 : (i 1).val < R := (i 1).isLt
  have hi2 : (i 2).val < C := (i 2).isLt
  have hj0 : (j 0).val < B := (j 0).isLt
  unfold ScatterDims.resultIdx?
  constructor
  · intro h
    split at h
    · rename_i hin
      have e := Option.some.inj h
      have e0 := congrArg Fin.val (congrFun e 0)
      have e1 := congrArg Fin.val (congrFun e 1)
      have e2 := congrArg Fin.val (congrFun e 2)
      simp only [hs0, hw0, hs1, hw1, hs2, hw2] at e0 e1 e2
      have g1 := (hin 1).1
      have g2 := (hin 2).1
      rw [hs1, hw1] at g1
      rw [hs2, hw2] at g2
      refine ⟨by omega, by omega, by omega⟩
    · exact absurd h (by simp)
  · rintro ⟨e0, e1, e2⟩
    have hin : ∀ a, 0 ≤ d.start j idx a + ↑(d.window j a) ∧ d.start j idx a + ↑(d.window j a) < (⟨3, ![B, R, C]⟩ : Shape).size a := by
      intro a
      match a with
      | ⟨0, _⟩ =>
        show 0 ≤ d.start j idx 0 + ↑(d.window j 0) ∧ d.start j idx 0 + ↑(d.window j 0) < ((B : Nat) : Int)
        rw [hs0, hw0]; omega
      | ⟨1, _⟩ =>
        show 0 ≤ d.start j idx 1 + ↑(d.window j 1) ∧ d.start j idx 1 + ↑(d.window j 1) < ((R : Nat) : Int)
        rw [hs1, hw1, e1]; omega
      | ⟨2, _⟩ =>
        show 0 ≤ d.start j idx 2 + ↑(d.window j 2) ∧ d.start j idx 2 + ↑(d.window j 2) < ((C : Nat) : Int)
        rw [hs2, hw2, e2]; omega
    rw [dif_pos hin]
    congr 1
    funext a
    apply Fin.ext
    match a with
    | ⟨0, _⟩ =>
      show (d.start j idx 0 + ↑(d.window j 0)).toNat = (i 0).val
      rw [hs0, hw0]; omega
    | ⟨1, _⟩ =>
      show (d.start j idx 1 + ↑(d.window j 1)).toNat = (i 1).val
      rw [hs1, hw1, e1]; omega
    | ⟨2, _⟩ =>
      show (d.start j idx 2 + ↑(d.window j 2)).toNat = (i 2).val
      rw [hs2, hw2, e2]; omega

end Cells

end Cert.LibScatter
-- ==== Proof.LibScatterSums.lean ====
/-
  The host's accumulating scatter of M scalars into a vector of length N, read at one entry.

  Over the extended reals the accumulating scatter holds, at every operand index, the operand's element plus the sum
  of the updates that land there. With one start index per update and the vector's one axis inserted, update n lands
  at k exactly when its start index, read signed, is k; so entry k is the operand's entry plus the sum over all n of
  "update n if index n is k, else nothing" — a start index outside [0, N) contributes to no entry.
-/
import Idealize.ShloMosaic.PureOps.Ideal
import Idealize.ShloMosaic.Lib.ValueIdx
import proofs.«126157_j60533269069867_2_alg».proof.Proof.LibScatterShapes

noncomputable section

open scoped BigOperators

namespace Cert.LibScatter

open Idealize.ShloMosaic Idealize.ShloMosaic.ValueIdx

variable {N M w : Nat}

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum over the indices of a vector is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Entry k of the accumulating scatter of M scalars into a vector: the operand's entry plus the updates whose
    start index is k. -/
theorem hostScatterAdd_vec_apply (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![M, 1]⟩ w) (upd : (⟨1, ![M]⟩ : Shape).Idx → EReal)
    (k : Fin N) :
    Ideal.hostScatterAdd d x idx upd (ix1 k)
      = x (ix1 k) + ∑ n : Fin M, if (idx (ix2 n 0)).toInt = (k.val : Int) then upd (ix1 n) else 0 := by
  unfold Ideal.hostScatterAdd
  refine congrArg (x (ix1 k) + ·) ?_
  rw [Finset.sum_filter, sum_idx1]
  refine Finset.sum_congr rfl fun n _ => ?_
  exact if_congr (resultIdx?_vec d h1 h2 h3 h4 (ix1 n) idx (ix1 k)) rfl rfl

end Cert.LibScatter

end
-- ==== Proof.LibRealSums.lean ====
/-
  Extended-real algebra for a quantised linear layer.

  A weight row is replaced by a ternary row `q` times one positive scale `s`.  One program forms the
  effective weight `w + (q · s − w)` and contracts it with the activations; the other contracts the
  ternary row and multiplies the finished sum by `s` once.  On the reals the two agree: the weight
  cancels, and `s` leaves the sum by distributivity.  On the extended reals both steps need every
  quantity to be finite, which is what the lemmas here assume.
-/
import Mathlib.Data.EReal.Operations
import Mathlib.Algebra.BigOperators.Ring.Finset

namespace Cert.ScaledSum

open scoped BigOperators

/-- An extended real between two reals is a real. -/
theorem real_of_between (a b : ℝ) (x : EReal) (h1 : (a : EReal) ≤ x) (h2 : x ≤ (b : EReal)) : ∃ r : ℝ, x = (r : EReal) := by
  induction x using EReal.rec with
  | bot => exact absurd h1 (not_le.2 (EReal.bot_lt_coe a))
  | coe r => exact ⟨r, rfl⟩
  | top => exact absurd h2 (not_le.2 (EReal.coe_lt_top b))

/-- The maximum of two reals, taken in the extended reals, is the real maximum. -/
theorem coe_max (a b : ℝ) : ((max a b : ℝ) : EReal) = max (a : EReal) (b : EReal) :=
  EReal.coe_strictMono.monotone.map_max

/-- A finite sum of reals, taken in the extended reals, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A finite sum of finite extended reals is finite. -/
theorem exists_real_sum {ι : Type*} (s : Finset ι) (f : ι → EReal) (hf : ∀ k, ∃ r : ℝ, f k = (r : EReal)) :
    ∃ r : ℝ, (∑ k ∈ s, f k) = (r : EReal) := by
  choose g hg using hf
  exact ⟨∑ k ∈ s, g k, by rw [← coe_sum]; exact Finset.sum_congr rfl fun k _ => hg k⟩

/-- The straight-through weight: a finite `w` added to `a − w` gives back `a`. -/
theorem add_sub_cancel_real (w a : ℝ) : (w : EReal) + ((a : EReal) - (w : EReal)) = (a : EReal) := by
  rw [← EReal.coe_sub, ← EReal.coe_add]; congr 1; ring

/-- Contracting the activations with the effective weight `w + (q · s − w)` is contracting them with the
    ternary row and scaling the finished sum by `s`, all quantities finite. -/
theorem sum_effective_weight {ι : Type*} [Fintype ι] (X W Q : ι → EReal) (s : EReal)
    (hX : ∀ k, ∃ r : ℝ, X k = (r : EReal)) (hW : ∀ k, ∃ r : ℝ, W k = (r : EReal))
    (hQ : ∀ k, ∃ r : ℝ, Q k = (r : EReal)) (hs : ∃ r : ℝ, s = (r : EReal)) :
    (∑ k, X k * (W k + (Q k * s - W k))) = (∑ k, X k * Q k) * s := by
  choose x hx using hX
  choose w hw using hW
  choose q hq using hQ
  obtain ⟨t, rfl⟩ := hs
  have e1 : ∀ k, X k * (W k + (Q k * (t : EReal) - W k)) = ((x k * q k * t : ℝ) : EReal) := fun k => by
    rw [hx k, hw k, hq k, ← EReal.coe_mul, add_sub_cancel_real, ← EReal.coe_mul]; congr 1; ring
  have e2 : ∀ k, X k * Q k = ((x k * q k : ℝ) : EReal) := fun k => by rw [hx k, hq k, ← EReal.coe_mul]
  rw [Finset.sum_congr rfl fun k _ => e1 k, Finset.sum_congr rfl fun k _ => e2 k, coe_sum, coe_sum, ← EReal.coe_mul,
    Finset.sum_mul]

end Cert.ScaledSum
-- ==== Proof.KNorm.lean ====
/-
  Two facts about the host's index arithmetic and normaliser.
  (1) The normaliser is a real number at every node: the degree is a finite sum of ones, so max(degree, 1) is a real
      at least 1, whose inverse square root is a real; the other branch of the select is 0.
  (2) A gather word wrapped the way array indexing wraps negatives — the word plus 100000 when it is negative, the
      word itself otherwise — reads row n whenever the raw word, read signed, is the node n: such a word is not
      negative, so it is kept, and clamping n into [0, 99999] is n.
-/
import proofs.«126157_j60533269069867_2_alg».proof.Proof.Gen.KernelIdeal
import proofs.«126157_j60533269069867_2_alg».proof.Proof.Model
import proofs.«126157_j60533269069867_2_alg».proof.Proof.LibScatterSums
import proofs.«126157_j60533269069867_2_alg».proof.Proof.LibScatterIdeal
import proofs.«126157_j60533269069867_2_alg».proof.Proof.LibRealSums
import Idealize.ShloMosaic.Lib.Pipeline.Value
import Idealize.ShloMosaic.Lib.ValueIdx
import Idealize.ShloMosaic.PureOps.Ideal.Laws

set_option maxRecDepth 16384

noncomputable section

namespace Cert.KernelIdeal.HostNorm

open scoped BigOperators
open Idealize.ShloMosaic Idealize.ShloMosaic.ValueIdx
open Cert.KernelIdeal Cert.KernelIdeal.Gen Cert.Gcn

abbrev Arr (s : Shape) (e : EltTy) : Type := (⟨s, e⟩ : BufTy).Contents (Elt Ideal)

/-- The in-degrees for destination words dV: ones added into zeros. -/
def degOfV (dV : Arr S1700000 .i32) : Arr S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 dV)
    (broadcastInDim S1700000 ![] bcast_S_S1700000 (constant (F := Ideal) S_ .f32 0x3F800000#32))

/-- The normaliser for destination words dV. -/
def dinvOfV (dV : Arr S1700000 .i32) : Arr S100000 .f32 :=
  select
    (cmpf (F := Ideal) .ogt (degOfV dV) (broadcastInDim S100000 ![] bcast_S_S100000 (constant (F := Ideal) S_ .f32 0x00000000#32)))
    (Host.rsqrt (maximumf (degOfV dV) (broadcastInDim S100000 ![] bcast_S_S100000 (constant (F := Ideal) S_ .f32 0x3F800000#32))))
    (broadcastInDim S100000 ![] bcast_S_S100000 (constant (F := Ideal) S_ .f32 0x00000000#32))

/-- The pattern of 1.0 is the real 1. -/
theorem ofBits_one : Ideal.ofBits .f32 0x3F800000#32 = ((1 : ℝ) : EReal) := by
  simp [Ideal.ofBits, Ideal.ieee, -EReal.coe_mul]; norm_num

/-- The inverse square root of a real at least 1 is a real. -/
theorem rsqrt_real_of_one_le (q : ℝ) (hq : 1 ≤ q) : ∃ r : ℝ, Ideal.rsqrt (q : EReal) = (r : EReal) := by
  refine ⟨(Real.sqrt q)⁻¹, ?_⟩
  show (if q < 0 then (⊥ : EReal) else if q = 0 then ⊤ else (((Real.sqrt q)⁻¹ : ℝ) : EReal)) = _
  rw [if_neg (by linarith), if_neg (by linarith)]

/-- A real plus a finite sum of reals is a real. -/
theorem real_add_sum {ι : Type} [Fintype ι] (a : EReal) (f : ι → EReal) (ha : ∃ r : ℝ, a = (r : EReal))
    (hf : ∀ e, ∃ r : ℝ, f e = (r : EReal)) : ∃ r : ℝ, a + ∑ e, f e = (r : EReal) := by
  obtain ⟨x, hx⟩ := ha
  obtain ⟨s, hs⟩ := Cert.ScaledSum.exists_real_sum Finset.univ f hf
  exact ⟨x + s, by rw [hx, hs, EReal.coe_add]⟩

/-- The degree of a node is a real. -/
theorem deg_real (dV : Arr S1700000 .i32) (n : Fin 100000) : ∃ r : ℝ, degOfV dV (ix1 n) = (r : EReal) := by
  unfold degOfV
  rw [Cert.LibScatter.scatterAdd_ideal]
  rw [Cert.LibScatter.hostScatterAdd_vec_apply _ rfl rfl rfl rfl]
  refine real_add_sum _ _ ⟨0, by rw [EReal.coe_zero]; exact Ideal.ofBits_zero_f32⟩ (fun e => ?_)
  dsimp only
  split
  · exact ⟨1, ofBits_one⟩
  · exact ⟨0, by rw [EReal.coe_zero]⟩

/-- The host's inverse square root of a vector, read at an index. -/
theorem hostRsqrt_apply {s : Shape} (v : FVec Ideal s .f32) (i : s.Idx) : Host.rsqrt v i = Ideal.rsqrt (v i) := rfl

/-- A scalar constant broadcast to any shape, read at an index: the constant. -/
theorem bcast_const_apply {s : Shape} (h : S_.BroadcastsInDim s ![]) (b : BitVec 32) (i : s.Idx) :
    broadcastInDim s ![] h (constant (F := Ideal) S_ .f32 b) i = Ideal.ofBits .f32 b := rfl

/-- Whatever the mask says, the selected value is a real when the degree is. -/
theorem sel_real (k : BitVec 1) (x : EReal) (hx : ∃ r : ℝ, x = (r : EReal)) :
    ∃ r : ℝ, Scalar.select k (Ideal.rsqrt (max x (Ideal.ofBits .f32 0x3F800000#32))) (Ideal.ofBits .f32 0x00000000#32) = (r : EReal) := by
  unfold Scalar.select
  split
  · obtain ⟨r, hr⟩ := hx
    rw [hr, ofBits_one, ← Cert.ScaledSum.coe_max]
    exact rsqrt_real_of_one_le _ (le_max_right _ _)
  · exact ⟨0, by rw [EReal.coe_zero]; exact Ideal.ofBits_zero_f32⟩

/-- The normaliser is a real at every node. -/
theorem dinv_real (dV : Arr S1700000 .i32) (n : Fin 100000) : ∃ r : ℝ, dinvOfV dV (ix1 n) = (r : EReal) := by
  unfold dinvOfV
  have hd := deg_real dV n
  generalize degOfV dV = dg at hd ⊢
  rw [select_apply, hostRsqrt_apply, maximumf_apply, bcast_const_apply, bcast_const_apply]
  exact sel_real _ _ hd

/-- A destination word that is the node n, wrapped for a gather, reads row n. -/
theorem rowOf_wrap (w : BitVec 32) (n : Fin 100000) (h : w.toInt = (n.val : Int)) :
    rowOf (Scalar.select (IntOp.cmpi .slt w 0#32) (IntOp.addi w 100000#32) w) = n := by
  have hn : n.val < 100000 := n.isLt
  have hs : w.slt 0#32 = false := by
    unfold BitVec.slt
    rw [h]
    simp
  have hc : IntOp.cmpi .slt w 0#32 = 0#1 := by
    unfold IntOp.cmpi
    dsimp only
    rw [hs]; rfl
  rw [hc]
  unfold Scalar.select
  rw [if_neg (by decide)]
  unfold rowOf
  apply Fin.ext
  show min w.toInt.toNat (100000 - 1) = n.val
  rw [h]
  omega

end Cert.KernelIdeal.HostNorm

end
-- ==== Proof.Bridge.lean ====
/-
  The two programs compute the same index words and the same normaliser from the edge array: the source and
  destination words, the wrapped source words, the degrees and the normaliser are, stage by stage, the same
  operations of the same operands.  The wrapped destination word of an edge that lands on node n reads row n, and the
  normaliser is a real at every node.
-/
import proofs.«126157_j60533269069867_2_alg».proof.Proof.KHost2
import proofs.«126157_j60533269069867_2_alg».proof.Proof.KNorm
import proofs.«126157_j60533269069867_2_alg».proof.Proof.RefRead

set_option maxRecDepth 16384

noncomputable section

namespace Cert.Bridge

open Idealize.ShloMosaic Idealize.ShloMosaic.ValueIdx
open Cert.Gcn Cert.KernelIdeal.HostValue
open Cert.ReferenceIdeal.ReadP

variable (x1 : Arr Cert.KernelIdeal.S2x1600000 .i32)

theorem src_eq : val_main_v3 (F := Ideal) x1 = srcOf x1 := by
  unfold val_main_v3 val_main_v2 val_main_v1 val_main_v0 srcOf
  rfl

theorem dst_eq : val_main_v6 (F := Ideal) x1 = dstOf x1 := by
  unfold val_main_v6 val_main_v5 val_main_v4 val_main_v0 dstOf
  rfl

theorem gsrc_eq : val_main_v22 (F := Ideal) x1 = gsrcOf x1 := by
  unfold val_main_v22 val_main_v19 val_main_v21 val_main_v18 val_main_v20 val_main_c val_main_c_4 gsrcOf
  rw [src_eq]

theorem deg_eq : val_main_v11 (F := Ideal) x1 = degOf x1 := by
  unfold val_main_v11 val_main_v9 val_main_v10 val_main_v8 val_main_cst val_main_cst_0 degOf
  rw [dst_eq]
  rfl

theorem dinv_eq : val_main_v17 (F := Ideal) x1 = dinvOf x1 := by
  unfold val_main_v17 val_main_v13 val_main_v16 val_main_v15 val_main_v12 val_main_v14 val_main_cst_1 val_main_cst_2
    val_main_call0_v1 val_main_call0_v0 val_main_cst_3 dinvOf
  rw [deg_eq]
  rfl

/-- An edge landing on node n reads, through its wrapped destination word, row n. -/
theorem wrapped_dst (e : Fin EE) (n : Fin NN) (h : (val_main_v6 (F := Ideal) x1 (ix1 e)).toInt = (n.val : Int)) :
    rowOf (val_main_v29 (F := Ideal) x1 (ix1 e)) = n := by
  unfold val_main_v29 val_main_v26 val_main_v28 val_main_v25 val_main_v27 val_main_c_5 val_main_c_6
  generalize val_main_v6 (F := Ideal) x1 = dv at h ⊢
  exact Cert.KernelIdeal.HostNorm.rowOf_wrap (dv (ix1 e)) n h

/-- The normaliser is a real at every node. -/
theorem dinv_real (r : Fin NN) : ∃ q : ℝ, dinvOf x1 (ix1 r) = (q : EReal) := by
  have h : dinvOf x1 = Cert.KernelIdeal.HostNorm.dinvOfV (dstOf x1) := by
    unfold dinvOf degOf Cert.KernelIdeal.HostNorm.dinvOfV Cert.KernelIdeal.HostNorm.degOfV
    rfl
  rw [h]
  exact Cert.KernelIdeal.HostNorm.dinv_real _ r

end Cert.Bridge

end
-- ==== Proof.RefValue.lean ====
/-
  The reference program's result, element by element, as the per-edge model of the two-layer graph convolution.

  The program computes, for every edge e with source word g e and destination word d e (the words with negatives
  wrapped by the number of nodes for the gathers, the raw destination words for the scatter-adds):

    weight e       = D (row (g e)) * D (row (gd e))                       the normaliser at both ends of the edge
    message₁ e l   = (∑ k, X (row (g e), k) * W1 (k, l)) * weight e       a gathered row of X·W1, weighted
    hidden n l     = max (0 + ∑ over edges landing on n of message₁ e l + b1 l) 0
    second n c     = ∑ l, hidden n l * W2 (l, c)
    message₂ e c   = second (row (g e)) c * weight e
    out n c        = 0 + ∑ over edges landing on n of message₂ e c + b2 c

  where row w is the word read signed and clamped into the table, and an edge lands on n exactly when its raw
  destination word, read signed, is n. These are the model's edgeNorm, rHidden, rSecond and rOut.

  Each stage below reads one operation of the program at an index: an elementwise operation reads its operands at the
  same index, a broadcast reads its operand at the index with the new axis dropped, a gather along the leading axis
  reads the table at the clamped row of its start word, an accumulating scatter of rows into zeros is the sum of the
  rows that land, and a contraction is the sum over the contracted axis. The second layer recomputes the wrapped
  words and the normaliser; those stages are shown equal to the first layer's by unfolding both to the same term.
  The index-word vectors and the normaliser stay opaque throughout.
-/
import proofs.«126157_j60533269069867_2_alg».proof.Proof.RefRead
import proofs.«126157_j60533269069867_2_alg».proof.Proof.Model
import proofs.«126157_j60533269069867_2_alg».proof.Proof.LibScatterIdeal
import proofs.«126157_j60533269069867_2_alg».proof.Proof.LibScatterRows
import proofs.«126157_j60533269069867_2_alg».proof.Proof.LibGather

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Gcn

/-! ### Gathers along the leading axis read the row `rowOf` of the start word -/

theorem gather_vec_rowOf (d : GatherDims ⟨1, ![100000]⟩ ⟨2, ![1700000, 1]⟩ ⟨1, ![1700000]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) {α : Type} (x : (⟨1, ![100000]⟩ : Shape).Idx → α) (idx : IVec ⟨2, ![1700000, 1]⟩ 32)
    (n : Fin 1700000) :
    Host.gather d x idx (ix1 n) = x (ix1 (rowOf (idx (ix2 n 0)))) :=
  Cert.LibGather.gather_vec_apply d h1 h2 h3 h4 h5 h6 h7 (by norm_num) x idx n

theorem gather_rows_rowOf {C : Nat} (d : GatherDims ⟨2, ![100000, C]⟩ ⟨2, ![1700000, 1]⟩ ⟨2, ![1700000, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) {α : Type} (x : (⟨2, ![100000, C]⟩ : Shape).Idx → α) (idx : IVec ⟨2, ![1700000, 1]⟩ 32)
    (n : Fin 1700000) (l : Fin C) :
    Host.gather d x idx (ix2 n l) = x (ix2 (rowOf (idx (ix2 n 0))) l) :=
  Cert.LibGather.gather_rows_apply d h1 h2 h3 h4 h5 h6 h7 (by norm_num) x idx n l

/-! ### Index maps of the layout operations, at an index given by coordinates -/

theorem idx10 (e : Fin 1700000) : idx_main_v10 (ix2 e 0) = ix1 e := by
  funext a; match a with | ⟨0, _⟩ => rfl
theorem idx23 (e : Fin 1700000) : idx_main_v23 (ix2 e 0) = ix1 e := by
  funext a; match a with | ⟨0, _⟩ => rfl
theorem idx30 (e : Fin 1700000) : idx_main_v30 (ix2 e 0) = ix1 e := by
  funext a; match a with | ⟨0, _⟩ => rfl
theorem idx38 (e : Fin 1700000) : idx_main_v38 (ix2 e 0) = ix1 e := by
  funext a; match a with | ⟨0, _⟩ => rfl
theorem idx40 (e : Fin 1700000) : idx_main_v40 (ix2 e 0) = ix1 e := by
  funext a; match a with | ⟨0, _⟩ => rfl
theorem idx44 (e : Fin 1700000) : idx_main_v44 (ix2 e 0) = ix1 e := by
  funext a; match a with | ⟨0, _⟩ => rfl
theorem idx53 (e : Fin 1700000) : idx_main_v53 (ix2 e 0) = ix1 e := by
  funext a; match a with | ⟨0, _⟩ => rfl
theorem idx66 (e : Fin 1700000) : idx_main_v66 (ix2 e 0) = ix1 e := by
  funext a; match a with | ⟨0, _⟩ => rfl
theorem idx73 (e : Fin 1700000) : idx_main_v73 (ix2 e 0) = ix1 e := by
  funext a; match a with | ⟨0, _⟩ => rfl
theorem idx81 (e : Fin 1700000) : idx_main_v81 (ix2 e 0) = ix1 e := by
  funext a; match a with | ⟨0, _⟩ => rfl
theorem idx83 (e : Fin 1700000) : idx_main_v83 (ix2 e 0) = ix1 e := by
  funext a; match a with | ⟨0, _⟩ => rfl
theorem idx87 (e : Fin 1700000) : idx_main_v87 (ix2 e 0) = ix1 e := by
  funext a; match a with | ⟨0, _⟩ => rfl

theorem idx41 (e : Fin 1700000) (l : Fin 128) : idx_main_v41 (ix2 e l) = ix2 e 0 := by
  funext a; match a with | ⟨0, _⟩ => rfl | ⟨1, _⟩ => rfl
theorem idx84 (e : Fin 1700000) (c : Fin 10) : idx_main_v84 (ix2 e c) = ix2 e 0 := by
  funext a; match a with | ⟨0, _⟩ => rfl | ⟨1, _⟩ => rfl
theorem idx4647 (n : Fin 100000) (l : Fin 128) : idx_main_v46 (idx_main_v47 (ix2 n l)) = ix1 l := by
  funext a; match a with | ⟨0, _⟩ => rfl
theorem idx8990 (n : Fin 100000) (c : Fin 10) : idx_main_v89 (idx_main_v90 (ix2 n c)) = ix1 c := by
  funext a; match a with | ⟨0, _⟩ => rfl
theorem lidx7 (n : Fin 100000) (l : Fin 128) (k : Fin 300) : lidx_main_v7 (ix2 n l) k = ix2 n k := by
  funext a; match a with | ⟨0, _⟩ => rfl | ⟨1, _⟩ => rfl
theorem ridx7 (n : Fin 100000) (l : Fin 128) (k : Fin 300) : ridx_main_v7 (ix2 n l) k = ix2 k l := by
  funext a; match a with | ⟨0, _⟩ => rfl | ⟨1, _⟩ => rfl
theorem lidx50 (n : Fin 100000) (c : Fin 10) (l : Fin 128) : lidx_main_v50 (ix2 n c) l = ix2 n l := by
  funext a; match a with | ⟨0, _⟩ => rfl | ⟨1, _⟩ => rfl
theorem ridx50 (n : Fin 100000) (c : Fin 10) (l : Fin 128) : ridx_main_v50 (ix2 n c) l = ix2 l c := by
  funext a; match a with | ⟨0, _⟩ => rfl | ⟨1, _⟩ => rfl

/-! ### Stages the program computes more than once -/

theorem v37_eq (x1 : (⟨S2x1600000, .i32⟩ : BufTy).Contents (Elt Ideal)) : val_main_v37 (F := Ideal) x1 = val_main_v22 (F := Ideal) x1 := by
  simp only [val_main_v37, val_main_v22, val_main_v34, val_main_v19, val_main_v36, val_main_v21, val_main_v33, val_main_v18, val_main_v35, val_main_v20, val_main_c_7, val_main_c, val_main_c_8, val_main_c_4]

theorem v65_eq (x1 : (⟨S2x1600000, .i32⟩ : BufTy).Contents (Elt Ideal)) : val_main_v65 (F := Ideal) x1 = val_main_v22 (F := Ideal) x1 := by
  simp only [val_main_v65, val_main_v22, val_main_v62, val_main_v19, val_main_v64, val_main_v21, val_main_v61, val_main_v18, val_main_v63, val_main_v20, val_main_c_15, val_main_c, val_main_c_16, val_main_c_4]

theorem v80_eq (x1 : (⟨S2x1600000, .i32⟩ : BufTy).Contents (Elt Ideal)) : val_main_v80 (F := Ideal) x1 = val_main_v22 (F := Ideal) x1 := by
  simp only [val_main_v80, val_main_v22, val_main_v77, val_main_v19, val_main_v79, val_main_v21, val_main_v76, val_main_v18, val_main_v78, val_main_v20, val_main_c_19, val_main_c, val_main_c_20, val_main_c_4]

theorem v72_eq (x1 : (⟨S2x1600000, .i32⟩ : BufTy).Contents (Elt Ideal)) : val_main_v72 (F := Ideal) x1 = val_main_v29 (F := Ideal) x1 := by
  simp only [val_main_v72, val_main_v29, val_main_v69, val_main_v26, val_main_v71, val_main_v28, val_main_v68, val_main_v25, val_main_v70, val_main_v27, val_main_c_17, val_main_c_5, val_main_c_18, val_main_c_6]

theorem v60_eq (x1 : (⟨S2x1600000, .i32⟩ : BufTy).Contents (Elt Ideal)) : val_main_v60 (F := Ideal) x1 = val_main_v17 (F := Ideal) x1 := by
  simp only [val_main_v60, val_main_v17, val_main_v56, val_main_v13, val_main_v59, val_main_v16, val_main_v58, val_main_v15,
    val_main_v54, val_main_v11, val_main_v57, val_main_v14, val_main_v55, val_main_v12, val_main_v53, val_main_v10,
    val_main_v52, val_main_v9, val_main_v51, val_main_v8, val_main_call2_v1, val_main_call0_v1, val_main_call2_v0, val_main_call0_v0,
    val_main_cst_14, val_main_cst_3, val_main_cst_13, val_main_cst_2, val_main_cst_12, val_main_cst_1, val_main_cst_11, val_main_cst_0,
    val_main_cst_10, val_main_cst]

section Stages

variable (x0 : (⟨S100000x300, .f32⟩ : BufTy).Contents (Elt Ideal)) (x1 : (⟨S2x1600000, .i32⟩ : BufTy).Contents (Elt Ideal)) (x2 : (⟨S300x128, .f32⟩ : BufTy).Contents (Elt Ideal)) (x3 : (⟨S128, .f32⟩ : BufTy).Contents (Elt Ideal)) (x4 : (⟨S128x10, .f32⟩ : BufTy).Contents (Elt Ideal)) (x5 : (⟨S10, .f32⟩ : BufTy).Contents (Elt Ideal))

/-- The first layer's edge weight. -/
theorem v32_at (e : Fin 1700000) :
    val_main_v32 (F := Ideal) x1 (ix1 e) = edgeNorm (fun e => val_main_v22 (F := Ideal) x1 (ix1 e)) (fun e => val_main_v29 (F := Ideal) x1 (ix1 e)) (fun r => val_main_v17 (F := Ideal) x1 (ix1 r)) e := by
  rw [val_main_v32_apply]
  unfold val_main_v24 val_main_v31
  rw [gather_vec_rowOf _ rfl rfl rfl rfl rfl rfl rfl, gather_vec_rowOf _ rfl rfl rfl rfl rfl rfl rfl,
    val_main_v23_apply, val_main_v30_apply, idx23, idx30]
  rfl

/-- The second layer's edge weight: the same quantity, computed again. -/
theorem v75_at (e : Fin 1700000) :
    val_main_v75 (F := Ideal) x1 (ix1 e) = edgeNorm (fun e => val_main_v22 (F := Ideal) x1 (ix1 e)) (fun e => val_main_v29 (F := Ideal) x1 (ix1 e)) (fun r => val_main_v17 (F := Ideal) x1 (ix1 r)) e := by
  rw [val_main_v75_apply]
  unfold val_main_v67 val_main_v74
  rw [gather_vec_rowOf _ rfl rfl rfl rfl rfl rfl rfl, gather_vec_rowOf _ rfl rfl rfl rfl rfl rfl rfl,
    val_main_v66_apply, val_main_v73_apply, idx66, idx73, v60_eq, v65_eq, v72_eq]
  rfl

/-- The first layer's message on edge e, lane l. -/
theorem v42_at (e : Fin 1700000) (l : Fin 128) :
    val_main_v42 (F := Ideal) x0 x1 x2 (ix2 e l)
      = xw x0 x2 (rowOf (val_main_v22 (F := Ideal) x1 (ix1 e))) l * edgeNorm (fun e => val_main_v22 (F := Ideal) x1 (ix1 e)) (fun e => val_main_v29 (F := Ideal) x1 (ix1 e)) (fun r => val_main_v17 (F := Ideal) x1 (ix1 r)) e := by
  rw [val_main_v42_apply]
  unfold val_main_v39
  rw [gather_rows_rowOf _ rfl rfl rfl rfl rfl rfl rfl, val_main_v38_apply, idx38, v37_eq, val_main_v7_apply,
    val_main_v41_apply, idx41, val_main_v40_apply, idx40, v32_at]
  simp only [lidx7, ridx7]
  rfl

/-- The first layer's scatter-add. -/
theorem v45_at (n : Fin 100000) (l : Fin 128) :
    val_main_v45 (F := Ideal) x0 x1 x2 (ix2 n l)
      = scat (fun e => val_main_v6 (F := Ideal) x1 (ix1 e)) (fun e => xw x0 x2 (rowOf (val_main_v22 (F := Ideal) x1 (ix1 e))) l * edgeNorm (fun e => val_main_v22 (F := Ideal) x1 (ix1 e)) (fun e => val_main_v29 (F := Ideal) x1 (ix1 e)) (fun r => val_main_v17 (F := Ideal) x1 (ix1 r)) e) n := by
  unfold val_main_v45
  rw [Cert.LibScatter.scatterAdd_ideal, Cert.LibScatter.hostScatterAdd_rows_apply _ rfl rfl rfl rfl, val_main_v43_apply,
    val_main_cst_9_apply]
  simp only [val_main_v44_apply, idx44, v42_at, Ideal.ofBits_def, Ideal.ofBits_zero_f32]
  rfl

/-- The hidden layer. -/
theorem v49_at (n : Fin 100000) (l : Fin 128) :
    val_main_v49 (F := Ideal) x0 x1 x2 x3 (ix2 n l) = rHidden (fun e => val_main_v22 (F := Ideal) x1 (ix1 e)) (fun e => val_main_v29 (F := Ideal) x1 (ix1 e)) (fun e => val_main_v6 (F := Ideal) x1 (ix1 e)) (fun r => val_main_v17 (F := Ideal) x1 (ix1 r)) x0 x2 x3 n l := by
  rw [val_main_v49_apply, val_main_v48_apply, v45_at, val_main_v47_apply, val_main_v46_apply, idx4647,
    val_main_call1_v0_apply, val_main_call1_cst_apply]
  simp only [Ideal.ofBits_def, Ideal.ofBits_zero_f32, Ideal.addf_def, Ideal.maximumf_def]
  rfl

/-- The second projection. -/
theorem v50_at (n : Fin 100000) (c : Fin 10) :
    val_main_v50 (F := Ideal) x0 x1 x2 x3 x4 (ix2 n c) = rSecond (fun e => val_main_v22 (F := Ideal) x1 (ix1 e)) (fun e => val_main_v29 (F := Ideal) x1 (ix1 e)) (fun e => val_main_v6 (F := Ideal) x1 (ix1 e)) (fun r => val_main_v17 (F := Ideal) x1 (ix1 r)) x0 x2 x3 x4 n c := by
  rw [val_main_v50_apply]
  simp only [lidx50, ridx50, v49_at]
  rfl

/-- The second layer's message on edge e, class c. -/
theorem v85_at (e : Fin 1700000) (c : Fin 10) :
    val_main_v85 (F := Ideal) x0 x1 x2 x3 x4 (ix2 e c)
      = rSecond (fun e => val_main_v22 (F := Ideal) x1 (ix1 e)) (fun e => val_main_v29 (F := Ideal) x1 (ix1 e)) (fun e => val_main_v6 (F := Ideal) x1 (ix1 e)) (fun r => val_main_v17 (F := Ideal) x1 (ix1 r)) x0 x2 x3 x4 (rowOf (val_main_v22 (F := Ideal) x1 (ix1 e))) c
          * edgeNorm (fun e => val_main_v22 (F := Ideal) x1 (ix1 e)) (fun e => val_main_v29 (F := Ideal) x1 (ix1 e)) (fun r => val_main_v17 (F := Ideal) x1 (ix1 r)) e := by
  rw [val_main_v85_apply]
  unfold val_main_v82
  rw [gather_rows_rowOf _ rfl rfl rfl rfl rfl rfl rfl, val_main_v81_apply, idx81, v80_eq, v50_at,
    val_main_v84_apply, idx84, val_main_v83_apply, idx83, v75_at]
  rfl

/-- The second layer's scatter-add. -/
theorem v88_at (n : Fin 100000) (c : Fin 10) :
    val_main_v88 (F := Ideal) x0 x1 x2 x3 x4 (ix2 n c)
      = scat (fun e => val_main_v6 (F := Ideal) x1 (ix1 e)) (fun e => rSecond (fun e => val_main_v22 (F := Ideal) x1 (ix1 e)) (fun e => val_main_v29 (F := Ideal) x1 (ix1 e)) (fun e => val_main_v6 (F := Ideal) x1 (ix1 e)) (fun r => val_main_v17 (F := Ideal) x1 (ix1 r)) x0 x2 x3 x4 (rowOf (val_main_v22 (F := Ideal) x1 (ix1 e))) c
          * edgeNorm (fun e => val_main_v22 (F := Ideal) x1 (ix1 e)) (fun e => val_main_v29 (F := Ideal) x1 (ix1 e)) (fun r => val_main_v17 (F := Ideal) x1 (ix1 r)) e) n := by
  unfold val_main_v88
  rw [Cert.LibScatter.scatterAdd_ideal, Cert.LibScatter.hostScatterAdd_rows_apply _ rfl rfl rfl rfl, val_main_v86_apply,
    val_main_cst_21_apply]
  simp only [val_main_v87_apply, idx87, v85_at, Ideal.ofBits_def, Ideal.ofBits_zero_f32]
  rfl

/-- The reference's result, element by element. -/
theorem ref_out (n : Fin 100000) (c : Fin 10) :
    val_main_v91 (F := Ideal) x0 x1 x2 x3 x4 x5 (ix2 n c)
      = rOut (fun e => val_main_v22 (F := Ideal) x1 (ix1 e)) (fun e => val_main_v29 (F := Ideal) x1 (ix1 e)) (fun e => val_main_v6 (F := Ideal) x1 (ix1 e)) (fun r => val_main_v17 (F := Ideal) x1 (ix1 r)) x0 x2 x3 x4 x5 n c := by
  rw [val_main_v91_apply, v88_at, val_main_v90_apply, val_main_v89_apply, idx8990]
  rfl

end Stages

/-- The reference's result as a function of the index. -/
theorem ref_out_fun (x0 : (⟨S100000x300, .f32⟩ : BufTy).Contents (Elt Ideal)) (x1 : (⟨S2x1600000, .i32⟩ : BufTy).Contents (Elt Ideal))
    (x2 : (⟨S300x128, .f32⟩ : BufTy).Contents (Elt Ideal)) (x3 : (⟨S128, .f32⟩ : BufTy).Contents (Elt Ideal))
    (x4 : (⟨S128x10, .f32⟩ : BufTy).Contents (Elt Ideal)) (x5 : (⟨S10, .f32⟩ : BufTy).Contents (Elt Ideal)) :
    val_main_v91 (F := Ideal) x0 x1 x2 x3 x4 x5
      = fun i => rOut (fun e => val_main_v22 (F := Ideal) x1 (ix1 e)) (fun e => val_main_v29 (F := Ideal) x1 (ix1 e))
          (fun e => val_main_v6 (F := Ideal) x1 (ix1 e)) (fun r => val_main_v17 (F := Ideal) x1 (ix1 r)) x0 x2 x3 x4 x5 (i 0) (i 1) := by
  funext i
  obtain ⟨n, c, rfl⟩ : ∃ (n : Fin 100000) (c : Fin 10), i = ix2 n c := ⟨i 0, i 1, eq_ix2 i⟩
  exact ref_out x0 x1 x2 x3 x4 x5 n c

end Cert.ReferenceIdeal.RefValue

end
-- ==== Proof.Law.lean ====
/-
  The two graph-convolution programs compute the same output on finite inputs.

  An edge e that lands on node n has destination word d e equal to n, and the destination gather row
  rowOf (gd e) is then n itself.  So the per-edge weight D (source) * D (destination) of every message that
  reaches n carries the common factor D n, and that factor moves out of the sum over the incoming edges.
  In the extended reals a * (b + c) = a * b + a * c can fail at the infinities, so the step is made on the
  reals: every quantity in sight (a projection, a message, a scatter-add of messages, a clipped hidden
  activation, a second projection) is shown to be a real number, layer by layer, and the factor is moved
  out of a sum of reals.  The second bias is added last on both sides and need not be finite.
-/
import proofs.«126157_j60533269069867_2_alg».proof.Proof.Model
import proofs.«126157_j60533269069867_2_alg».proof.Proof.LibRealSums

noncomputable section

open scoped BigOperators
open Idealize.ShloMosaic Idealize.ShloMosaic.ValueIdx
open Cert.ScaledSum

namespace Cert.Gcn

namespace Law

/-! ### The reals are closed under the operations used -/

theorem real_zero : ∃ r : ℝ, (0 : EReal) = (r : EReal) := ⟨0, EReal.coe_zero.symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, (coe_max a b).symm⟩

/-! ### A real factor moves out of a sum over the edges that land -/

/-- Over any finite set of edges with any landing condition: zero plus the sum of the landing messages,
    times a real t, is zero plus the sum of the landing messages each times t — all messages real. -/
theorem sum_landing_mul {ε : Type*} [Fintype ε] (p : ε → Prop) [DecidablePred p] (u : ε → EReal) (t : EReal)
    (hu : ∀ e, ∃ r : ℝ, u e = (r : EReal)) (ht : ∃ r : ℝ, t = (r : EReal)) :
    (0 + ∑ e, if p e then u e else 0) * t = 0 + ∑ e, if p e then u e * t else 0 := by
  choose v hv using hu
  obtain ⟨s, rfl⟩ := ht
  have e1 : ∀ e, (if p e then u e else 0) = (((if p e then v e else 0) : ℝ) : EReal) := fun e => by
    split_ifs
    · exact hv e
    · exact EReal.coe_zero.symm
  have e2 : ∀ e, (if p e then u e * (s : EReal) else 0) = (((if p e then v e else 0) * s : ℝ) : EReal) := fun e => by
    split_ifs
    · rw [hv e, ← EReal.coe_mul]
    · rw [zero_mul]; exact EReal.coe_zero.symm
  rw [zero_add, zero_add, Finset.sum_congr rfl fun e _ => e1 e, Finset.sum_congr rfl fun e _ => e2 e, coe_sum, coe_sum,
    ← EReal.coe_mul, Finset.sum_mul]

/-- A scatter-add of real messages, times a real, is the scatter-add of the messages each times that real. -/
theorem scat_mul (d : Fin EE → BitVec 32) (u : Fin EE → EReal) (n : Fin NN) (t : EReal)
    (hu : ∀ e, ∃ r : ℝ, u e = (r : EReal)) (ht : ∃ r : ℝ, t = (r : EReal)) :
    scat d u n * t = scat d (fun e => u e * t) n :=
  sum_landing_mul (fun e => (d e).toInt = (n.val : Int)) u t hu ht

/-- A scatter-add only sees the messages of the edges that land on the node. -/
theorem scat_congr (d : Fin EE → BitVec 32) (u v : Fin EE → EReal) (n : Fin NN)
    (h : ∀ e, (d e).toInt = (n.val : Int) → u e = v e) : scat d u n = scat d v n := by
  unfold scat
  refine congrArg (fun s => 0 + s) (Finset.sum_congr rfl fun e _ => ?_)
  split_ifs with he
  · exact h e he
  · rfl

/-- A scatter-add of real messages is real. -/
theorem scat_real (d : Fin EE → BitVec 32) (u : Fin EE → EReal) (n : Fin NN)
    (hu : ∀ e, ∃ r : ℝ, u e = (r : EReal)) : ∃ r : ℝ, scat d u n = (r : EReal) := by
  unfold scat
  refine real_add real_zero (exists_real_sum _ _ fun e => ?_)
  split_ifs
  · exact hu e
  · exact real_zero

/-- Scaling each message by D at its source and the finished sum by D at the node is weighting each message
    by D at its source times D at its destination row: on the edges that land on n that row is n. -/
theorem scat_scaled_eq_weighted (g gd d : Fin EE → BitVec 32) (D : Fin NN → EReal) (m : Fin NN → EReal)
    (hD : ∀ n, ∃ r : ℝ, D n = (r : EReal)) (hm : ∀ n, ∃ r : ℝ, m n = (r : EReal))
    (hgd : ∀ e n, (d e).toInt = (n.val : Int) → rowOf (gd e) = n) (n : Fin NN) :
    scat d (fun e => m (rowOf (g e)) * D (rowOf (g e))) n * D n
      = scat d (fun e => m (rowOf (g e)) * edgeNorm g gd D e) n := by
  rw [scat_mul d _ n (D n) (fun e => real_mul (hm _) (hD _)) (hD n)]
  refine scat_congr d _ _ n fun e he => ?_
  show m (rowOf (g e)) * D (rowOf (g e)) * D n = m (rowOf (g e)) * (D (rowOf (g e)) * D (rowOf (gd e)))
  rw [hgd e n he, mul_assoc]

end Law

open Law

/-! ### Layer by layer -/

section Layers
variable (g gd d : Fin EE → BitVec 32) (D : Fin NN → EReal)
  (X : SX.Idx → EReal) (W1 : SW1.Idx → EReal) (b1 : SB1.Idx → EReal) (W2 : SW2.Idx → EReal) (b2 : SB2.Idx → EReal)

/-- A projection of real features against real weights is real. -/
theorem xw_real (hX : ∀ i, ∃ r : ℝ, X i = (r : EReal)) (hW1 : ∀ i, ∃ r : ℝ, W1 i = (r : EReal))
    (n : Fin NN) (l : Fin 128) : ∃ r : ℝ, xw X W1 n l = (r : EReal) :=
  exists_real_sum _ _ fun _ => real_mul (hX _) (hW1 _)

/-- The two hidden layers agree. -/
theorem kHidden_eq_rHidden (hD : ∀ n, ∃ r : ℝ, D n = (r : EReal)) (hX : ∀ i, ∃ r : ℝ, X i = (r : EReal))
    (hW1 : ∀ i, ∃ r : ℝ, W1 i = (r : EReal))
    (hgd : ∀ e n, (d e).toInt = (n.val : Int) → rowOf (gd e) = n) (n : Fin NN) (l : Fin 128) :
    kHidden g d D X W1 b1 n l = rHidden g gd d D X W1 b1 n l := by
  unfold kHidden rHidden
  rw [scat_scaled_eq_weighted g gd d D (fun n => xw X W1 n l) hD (fun n => xw_real X W1 hX hW1 n l) hgd n]

/-- The hidden layer of the per-edge program is real. -/
theorem rHidden_real (hD : ∀ n, ∃ r : ℝ, D n = (r : EReal)) (hX : ∀ i, ∃ r : ℝ, X i = (r : EReal))
    (hW1 : ∀ i, ∃ r : ℝ, W1 i = (r : EReal)) (hb1 : ∀ i, ∃ r : ℝ, b1 i = (r : EReal)) (n : Fin NN) (l : Fin 128) :
    ∃ r : ℝ, rHidden g gd d D X W1 b1 n l = (r : EReal) := by
  unfold rHidden
  exact real_max (real_add (scat_real d _ n fun e => real_mul (xw_real X W1 hX hW1 _ l) (real_mul (hD _) (hD _))) (hb1 _))
    real_zero

/-- The hidden layer of the scaling program is real. -/
theorem kHidden_real (hD : ∀ n, ∃ r : ℝ, D n = (r : EReal)) (hX : ∀ i, ∃ r : ℝ, X i = (r : EReal))
    (hW1 : ∀ i, ∃ r : ℝ, W1 i = (r : EReal)) (hb1 : ∀ i, ∃ r : ℝ, b1 i = (r : EReal)) (n : Fin NN) (l : Fin 128) :
    ∃ r : ℝ, kHidden g d D X W1 b1 n l = (r : EReal) := by
  unfold kHidden
  exact real_max (real_add (real_mul (scat_real d _ n fun e => real_mul (xw_real X W1 hX hW1 _ l) (hD _)) (hD n)) (hb1 _))
    real_zero

/-- The second projection of the per-edge program is real. -/
theorem rSecond_real (hD : ∀ n, ∃ r : ℝ, D n = (r : EReal)) (hX : ∀ i, ∃ r : ℝ, X i = (r : EReal))
    (hW1 : ∀ i, ∃ r : ℝ, W1 i = (r : EReal)) (hb1 : ∀ i, ∃ r : ℝ, b1 i = (r : EReal))
    (hW2 : ∀ i, ∃ r : ℝ, W2 i = (r : EReal)) (n : Fin NN) (c : Fin 10) :
    ∃ r : ℝ, rSecond g gd d D X W1 b1 W2 n c = (r : EReal) :=
  exists_real_sum _ _ fun l => real_mul (rHidden_real g gd d D X W1 b1 hD hX hW1 hb1 n l) (hW2 _)

/-- The scaled second projection is the per-edge program's second projection times the node's normaliser. -/
theorem kSecond_eq_rSecond_mul (hD : ∀ n, ∃ r : ℝ, D n = (r : EReal)) (hX : ∀ i, ∃ r : ℝ, X i = (r : EReal))
    (hW1 : ∀ i, ∃ r : ℝ, W1 i = (r : EReal))
    (hgd : ∀ e n, (d e).toInt = (n.val : Int) → rowOf (gd e) = n) (n : Fin NN) (c : Fin 10) :
    kSecond g d D X W1 b1 W2 n c = rSecond g gd d D X W1 b1 W2 n c * D n := by
  unfold kSecond rSecond
  rw [Finset.sum_congr rfl fun l _ => by rw [kHidden_eq_rHidden g gd d D X W1 b1 hD hX hW1 hgd n l]]

/-- The two programs' outputs agree. -/
theorem kOut_eq_rOut (g gd d : Fin EE → BitVec 32) (D : Fin NN → EReal) (X : SX.Idx → EReal) (W1 : SW1.Idx → EReal)
    (b1 : SB1.Idx → EReal) (W2 : SW2.Idx → EReal) (b2 : SB2.Idx → EReal)
    (hD : ∀ n, ∃ r : ℝ, D n = (r : EReal)) (hX : ∀ i, ∃ r : ℝ, X i = (r : EReal))
    (hW1 : ∀ i, ∃ r : ℝ, W1 i = (r : EReal)) (hb1 : ∀ i, ∃ r : ℝ, b1 i = (r : EReal))
    (hW2 : ∀ i, ∃ r : ℝ, W2 i = (r : EReal))
    (hgd : ∀ e n, (d e).toInt = (n.val : Int) → rowOf (gd e) = n)
    (n : Fin NN) (c : Fin 10) : kOut g d D X W1 b1 W2 b2 n c = rOut g gd d D X W1 b1 W2 b2 n c := by
  unfold kOut rOut
  have hk : (fun e => kSecond g d D X W1 b1 W2 (rowOf (g e)) c)
      = fun e => rSecond g gd d D X W1 b1 W2 (rowOf (g e)) c * D (rowOf (g e)) :=
    funext fun e => kSecond_eq_rSecond_mul g gd d D X W1 b1 W2 hD hX hW1 hgd (rowOf (g e)) c
  rw [hk, scat_scaled_eq_weighted g gd d D (fun n => rSecond g gd d D X W1 b1 W2 n c) hD
    (fun n => rSecond_real g gd d D X W1 b1 W2 hD hX hW1 hb1 hW2 n c) hgd n]

end Layers

end Cert.Gcn

end
-- ==== Proof.Finite.lean ====
/-
  From the precondition to finiteness.

  The precondition is one truth value: for each of the five floating-point argument arrays, "every entry has
  absolute value below plus infinity", the five joined by "and".  It is stated to be true.  A conjunction
  that is true has true members; an "and"-reduction over a whole array that is true was true at every entry;
  and an extended real a whose absolute value max a (-a) lies below plus infinity is neither plus infinity
  (whose absolute value is plus infinity) nor minus infinity (likewise), so it is a real number.
-/
import proofs.«126157_j60533269069867_2_alg».proof.Defs
import Idealize.ShloMosaic.Lib.ReduceAll
import Idealize.ShloMosaic.Lib.ValueIdx
import Idealize.ShloMosaic.PureOps.Ideal.Laws

noncomputable section

open Idealize.ShloMosaic Idealize.SL.Sem
open Cert.Pre_finite_inputs

namespace Cert.Finite

/-- The result shape of a reduction over every axis has exactly one index. -/
instance : Subsingleton S_.Idx := ⟨fun _ _ => funext fun d => d.elim0⟩

/-- The pattern the comparison is made against denotes plus infinity. -/
theorem ofBits_inf : Ideal.ofBits .f32 0x7F800000#32 = (⊤ : EReal) := by simp [Ideal.ofBits, Ideal.ieee]

/-- An extended real whose absolute value is below plus infinity is a real number. -/
theorem real_of_abs_lt_inf (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  change Ideal.cmp .olt (max a (-a)) (Ideal.ofBits .f32 0x7F800000#32) = 1#1 at h
  rw [ofBits_inf] at h
  induction a using EReal.rec with
  | bot => simp [Ideal.cmp] at h
  | coe r => exact ⟨r, rfl⟩
  | top => simp [Ideal.cmp] at h

/-- "All entries of x have absolute value below plus infinity", when true, makes every entry of x real:
    the and-reduction over every axis was true at each index. -/
theorem real_of_all {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi (cmpf .olt (Host.absf x) (broadcastInDim s ![] bc (constant S_ .f32 0x7F800000#32)))
      (constantI S_ 1 1#1) hr hu ValueIdx.ix0 = 1#1) (i : s.Idx) : ∃ r : ℝ, x i = (r : EReal) :=
  real_of_abs_lt_inf (x i) (Host.reduce_andi_all _ _ hr hu ValueIdx.ix0 e i)

/-- The precondition, true, makes every entry of the five floating-point arrays a real number. -/
theorem real_of_fn [Cert.Pre_finite_inputs.Facts] (x0 : FVec Ideal S100000x300 .f32) (x1 : IVec S2x1600000 32)
    (x2 : FVec Ideal S300x128 .f32) (x3 : FVec Ideal S128 .f32) (x4 : FVec Ideal S128x10 .f32) (x5 : FVec Ideal S10 .f32)
    (h : Cert.Pre_finite_inputs.fn (F := Ideal) x0 x1 x2 x3 x4 x5 = (fun _ => 1#1)) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) := by
  have h0 := congrFun h ValueIdx.ix0
  dsimp only [Cert.Pre_finite_inputs.fn, Cert.Pre_finite_inputs.fn_part1, andi] at h0
  obtain ⟨h1, e5⟩ := IntOp.andi_eq_one.1 h0
  obtain ⟨h2, e4⟩ := IntOp.andi_eq_one.1 h1
  obtain ⟨h3, e3⟩ := IntOp.andi_eq_one.1 h2
  obtain ⟨e0, e2⟩ := IntOp.andi_eq_one.1 h3
  exact ⟨real_of_all x0 _ _ _ e0, real_of_all x2 _ _ _ e2, real_of_all x3 _ _ _ e3, real_of_all x4 _ _ _ e4,
    real_of_all x5 _ _ _ e5⟩

/-- Under the kernel's precondition, at every device, every entry of its five floating-point argument arrays
    is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S100000x300.Idx, ∃ r : ℝ, (m ((c.tc : Thread Cert.KernelIdeal.nD Cert.KernelIdeal.τ).loc Cert.KernelIdeal.main_arg0) : FVec Ideal S100000x300 .f32) i = (r : EReal))
      ∧ (∀ i : S300x128.Idx, ∃ r : ℝ, (m ((c.tc : Thread Cert.KernelIdeal.nD Cert.KernelIdeal.τ).loc Cert.KernelIdeal.main_arg2) : FVec Ideal S300x128 .f32) i = (r : EReal))
      ∧ (∀ i : S128.Idx, ∃ r : ℝ, (m ((c.tc : Thread Cert.KernelIdeal.nD Cert.KernelIdeal.τ).loc Cert.KernelIdeal.main_arg3) : FVec Ideal S128 .f32) i = (r : EReal))
      ∧ (∀ i : S128x10.Idx, ∃ r : ℝ, (m ((c.tc : Thread Cert.KernelIdeal.nD Cert.KernelIdeal.τ).loc Cert.KernelIdeal.main_arg4) : FVec Ideal S128x10 .f32) i = (r : EReal))
      ∧ (∀ i : S10.Idx, ∃ r : ℝ, (m ((c.tc : Thread Cert.KernelIdeal.nD Cert.KernelIdeal.τ).loc Cert.KernelIdeal.main_arg5) : FVec Ideal S10 .f32) i = (r : EReal)) :=
  real_of_fn _ _ _ _ _ _ (h c)

end Cert.Finite

end
-- ==== Proof.lean ====
/-
  A two-layer graph convolution, computed two ways, gives the same output on the extended reals whenever the
  float inputs are finite.

  Both programs append one self loop per node to the edge list, count the in-degrees and form the normaliser
  D = 1 / sqrt(max(degree, 1)) (0 where no edge lands).  The reference weights every edge's message by
  D(source) · D(destination) and adds the messages at the destinations.  The kernel program scales each node's
  projected features by D before the gather, adds the gathered rows at the destinations, and scales the sum at node
  n by D(n) afterwards, in three row-tiled kernels with the gathers and scatter-adds on the host between them.

  The two agree because an edge that lands on node n has destination gather row n, so its weight is
  D(source) · D(n), and the common factor D(n) moves out of the finite sum over the edges landing on n.  On the
  extended reals that step needs every summand and D(n) to be real numbers: the projections are finite sums of
  products of finite inputs, D is a real at every node, and so on through the clipped hidden layer and the second
  projection.  The second bias is added last on both sides and may be anything.

  The kernel program's run names its result array (the boundary contents after the third kernel), each kernel's
  output array is one function of its operand arrays (twenty tiles of 5000 rows cover the 100000 rows), the host
  stretches between them are read off their operations, and the composition is the model's output entry by entry.
  The reference's run is read stage by stage to the model's per-edge form.  The index words and the normaliser are
  the same operations of the same edge array in both programs.
-/
import proofs.«126157_j60533269069867_2_alg».proof.Defs
import proofs.«126157_j60533269069867_2_alg».proof.Proof.Gen.Kernel
import proofs.«126157_j60533269069867_2_alg».proof.Proof.Gen.Kernel.Skeleton
import proofs.«126157_j60533269069867_2_alg».proof.Proof.Gen.Kernel.Launch
import proofs.«126157_j60533269069867_2_alg».proof.Proof.Gen.Kernel.Points
import proofs.«126157_j60533269069867_2_alg».proof.Proof.Gen.Kernel.Frame
import proofs.«126157_j60533269069867_2_alg».proof.Proof.Gen.KernelIdeal
import proofs.«126157_j60533269069867_2_alg».proof.Proof.Gen.KernelIdeal.Skeleton
import proofs.«126157_j60533269069867_2_alg».proof.Proof.Gen.KernelIdeal.Launch
import proofs.«126157_j60533269069867_2_alg».proof.Proof.Gen.KernelIdeal.Points
import proofs.«126157_j60533269069867_2_alg».proof.Proof.Gen.KernelIdeal.Frame
import proofs.«126157_j60533269069867_2_alg».proof.Proof.Gen.ReferenceIdeal
import proofs.«126157_j60533269069867_2_alg».proof.Proof.Gen.Pre_finite_inputs
import proofs.«126157_j60533269069867_2_alg».proof.Proof.KFinal
import proofs.«126157_j60533269069867_2_alg».proof.Proof.Bridge
import proofs.«126157_j60533269069867_2_alg».proof.Proof.RefValue
import proofs.«126157_j60533269069867_2_alg».proof.Proof.Law
import proofs.«126157_j60533269069867_2_alg».proof.Proof.Finite
import Idealize.ShloMosaic.Adequacy
import Idealize.ShloMosaic.Init

set_option maxRecDepth 16384

noncomputable section

namespace Cert.Proof

open Idealize.ShloMosaic Idealize.ShloMosaic.ValueIdx Idealize.SL.Sem

/-- The reference's result term is the model's output for the row-scaling program, when the reference's arguments
    are the kernel program's and the float inputs are finite. -/
theorem ref_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.ValueP.res_main_v91 (F := Ideal) m' c = Cert.KernelIdeal.Final.result m c := by
  rw [Cert.ReferenceIdeal.ReadP.val_main_v91_eq, Cert.ReferenceIdeal.RefValue.ref_out_fun, h0, h1, h2, h3, h4, h5]
  obtain ⟨hX, hW1, hb1, hW2, -⟩ := Cert.Finite.real_of_pre m hpre c
  funext i
  rw [Cert.Bridge.gsrc_eq, Cert.Bridge.dst_eq, Cert.Bridge.dinv_eq]
  exact (Cert.Gcn.kOut_eq_rOut _ _ _ _ _ _ _ _ _ (fun r => Cert.Bridge.dinv_real _ r) hX hW1 hb1 hW2
    (fun e n h => Cert.Bridge.wrapped_dst _ e n (by rw [Cert.Bridge.dst_eq]; exact h)) (i 0) (i 1)).symm

/-- The two idealized programs, from memories agreeing on the arguments, both run and end with equal results. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  exact ref_result m m' hpre c h0 h1 h2 h3 h4 h5

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
